-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg14 : FVec F S256 .f32) (main_arg18 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_cst_34 : FVec F S_ .f32 := constant S_ .f32 0x00000000#32
  let main_v89 : FVec F S256 .f32 := broadcastInDim S256 ![] bcast_S_S256 main_cst_34
  let main_v90 : IVec S256 1 := cmpf .oge main_arg14 main_v89
  let main_c_35 : IVec S_ 1 := constantI S_ 1 1#1
  let main_v91 : IVec S_ 1 := (fun x v => Host.reduce IntOp.andi x v reducesTo_S256_S_d0 h_S_) main_v90 main_c_35
  let main_v92 : IVec S_ 1 := andi main_v88 main_v91
  let main_cst_36 : FVec F S_ .f32 := constant S_ .f32 0x00000000#32
  let main_v93 : FVec F S256 .f32 := broadcastInDim S256 ![] bcast_S_S256 main_cst_36
  let main_v94 : IVec S256 1 := cmpf .oge main_arg18 main_v93
  let main_c_37 : IVec S_ 1 := constantI S_ 1 1#1
  let main_v95 : IVec S_ 1 := (fun x v => Host.reduce IntOp.andi x v reducesTo_S256_S_d0 h_S_) main_v94 main_c_37
  let main_v96 : IVec S_ 1 := andi main_v92 main_v95
  main_v96

def fn_part4 {F : FTy → Type} [FloatOps F] (main_arg14 : FVec F S256 .f32) (main_arg15 : FVec F S256 .f32) (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg14 main_arg18 main_v83 main_v84 main_cst_32

def fn_part3 {F : FTy → Type} [FloatOps F] (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_v63 main_v67

def fn_part2 {F : FTy → Type} [FloatOps F] (main_arg8 : FVec F S256x128 .f32) (main_arg9 : FVec F S128 .f32) (main_arg10 : FVec F S256x128 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_v48 main_v49 main_v50

def fn_part1 {F : FTy → Type} [FloatOps F] (main_arg5 : FVec F S256x256 .f32) (main_arg6 : FVec F S256 .f32) (main_arg7 : FVec F S256x256 .f32) (main_arg8 : FVec F S256x128 .f32) (main_arg9 : FVec F S128 .f32) (main_arg10 : FVec F S256x128 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x128 .f32) (main_arg9 : FVec F S128 .f32) (main_arg10 : FVec F S256x128 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 112
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .f32⟩
  | .hbm, ⟨37, _⟩ => ⟨S800000, .f32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S50000x256, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x256, .f32⟩
  | .hbm, ⟨94, _⟩ => ⟨S_, .f32⟩
  | .hbm, ⟨95, _⟩ => ⟨S50000x256, .f32⟩
  | .hbm, ⟨96, _⟩ => ⟨S800000x1, .i32⟩
  | .hbm, ⟨97, _⟩ => ⟨S50000x256, .f32⟩
  | .hbm, ⟨98, _⟩ => ⟨S_, .f32⟩
  | .hbm, ⟨99, _⟩ => ⟨S800000, .f32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x256, .f32⟩
  | .hbm, ⟨109, _⟩ => ⟨S50000x256, .f32⟩
  | .hbm, ⟨110, _⟩ => ⟨S1x128, .f32⟩
  | .hbm, ⟨111, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x128, .f32⟩
  | .local _ .vmem, ⟨31, _⟩ => ⟨S1x128, .f32⟩
  | .local _ .vmem, ⟨32, _⟩ => ⟨S256x128, .f32⟩
  | .local _ .vmem, ⟨33, _⟩ => ⟨S2000x128, .f32⟩
  | .local _ .vmem, ⟨34, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v72) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S128x256, .f32⟩
  | 5 => ⟨S256x256, .f32⟩
  | 6 => ⟨S256, .f32⟩
  | 7 => ⟨S256x256, .f32⟩
  | 8 => ⟨S256x128, .f32⟩
  | 9 => ⟨S128, .f32⟩
  | 10 => ⟨S256x128, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x256, .f32⟩
  | 49 => ⟨S1x256, .f32⟩
  | 50 => ⟨S50000x256, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S256, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S50000x256, .f32⟩
  | 84 => ⟨S800000x1, .i32⟩
  | 85 => ⟨S50000x256, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S256, .f32⟩
  | 109 => ⟨S256, .f32⟩
  | 110 => ⟨S256, .f32⟩
  | 111 => ⟨S1x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x256, .f32⟩
  | 4 => ⟨S_, .f32⟩
  | 5 => ⟨S50000x256, .f32⟩
  | 6 => ⟨S800000x1, .i32⟩
  | 7 => ⟨S50000x256, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x256, .f32⟩
  | 19 => ⟨S50000x256, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_c_12 : Ref sig .tc := ⟨.hbm, 123, rfl⟩
abbrev main_v86 : Ref sig .tc := ⟨.hbm, 124, rfl⟩
abbrev main_v87 : Ref sig .tc := ⟨.hbm, 125, rfl⟩
abbrev main_c_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_17 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its RESULT named. The program is three accelerator regions among three stretches of
  host operations; its run ends with every unscoped buffer at the contents the fold through the six segments computes,
  so the result buffer ends at the fold's value there — the third region's output array after all its write-backs —
  and every argument array ends as launched.
-/
import proofs.«125707_j77833397338551_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v74) = W6 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v74 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.ValueRun

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«125707_j77833397338551_2_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.LibSageLayer.lean ====
/-
  One graph-convolution layer of the "mean of the neighbours and the node itself" kind, over the extended reals and for
  any extents M (nodes), K (input features), N (output features).

  The linear part: `lin A X Wl Wr b` has entry (a, q) = (∑ c, A (a, c) · Wl (c, q) + ∑ c, X (a, c) · Wr (c, q)) + b q.
  The normalisation: a column-wise affine map built from a variance v, a mean m, a weight w and a shift s, followed by
  a rectifier. It is written in two arrangements,
    folded:   max (out · (r · w) + (s − (m · r) · w)) 0      with r = (v + ε)^(-1/2),
    unfolded: max (((out − m) · r) · w + s) 0,
  and the two agree for EVERY extended real `out` as soon as m, w, s are real and v + ε is a positive real: the product
  of extended reals is associative, so both are `out · t + const` with the real t = r · w, and at out = ±∞ adding a real
  constant changes nothing while at a real `out` it is the ring identity (out − m) · t + s = out · t + (s − m · t).

  Then the two ways a program computes the layer are read at an index: an accelerator body (two matrix products of
  operands rounded to a narrower format into zero accumulators, one bias row repeated down the rows, the folded
  normalisation on rows repeated down the rows), and a host line (two `dot_general`s, vectors broadcast to a row and then
  to the array, the unfolded normalisation). Finally a block of consecutive rows of the layer is the layer of the
  blocks of rows.
-/
import Idealize.ShloMosaic.PureOps.Ideal.Laws
import Idealize.ShloMosaic.Lib.ValueIdx
import Idealize.ShloMosaic.Lib.ValueLayout
import Idealize.ShloMosaic.Lib.Pipeline.Value
import proofs.«125707_j77833397338551_2_alg».proof.Proof.LibDotNN

noncomputable section

open scoped BigOperators

namespace Cert.LibSageLayer

open Idealize.ShloMosaic Idealize.ShloMosaic.ValueIdx

variable {M K N : Nat}

/-! ## The specification -/

/-- The linear part of the layer at entry `i = (a, q)`. -/
def lin (A X : (⟨2, ![M, K]⟩ : Shape).Idx → EReal) (Wl Wr : (⟨2, ![K, N]⟩ : Shape).Idx → EReal) (b : Fin N → EReal) :
    (⟨2, ![M, N]⟩ : Shape).Idx → EReal :=
  fun i => ((∑ c : Fin K, A (ix2 (i 0) c) * Wl (ix2 c (i 1))) + ∑ c : Fin K, X (ix2 (i 0) c) * Wr (ix2 c (i 1))) + b (i 1)

/-- The folded normalisation and rectifier of one entry. -/
def bnFold (out w s m v e : EReal) : EReal :=
  max (out * (Ideal.rsqrt (v + e) * w) + (s - (m * Ideal.rsqrt (v + e)) * w)) (Ideal.ofBits .f32 0x00000000#32)

/-- The unfolded normalisation and rectifier of one entry. -/
def bnPlain (out w s m v e : EReal) : EReal :=
  max ((((out - m) * Ideal.rsqrt (v + e)) * w) + s) (Ideal.ofBits .f32 0x00000000#32)

/-- The layer with normalisation, in the folded arrangement. -/
def layerBN (A X : (⟨2, ![M, K]⟩ : Shape).Idx → EReal) (Wl Wr : (⟨2, ![K, N]⟩ : Shape).Idx → EReal)
    (b w s m v : Fin N → EReal) (e : EReal) : (⟨2, ![M, N]⟩ : Shape).Idx → EReal :=
  fun i => bnFold (lin A X Wl Wr b i) (w (i 1)) (s (i 1)) (m (i 1)) (v (i 1)) e

/-! ## The two arrangements of the normalisation agree -/

theorem affine_eq (out : EReal) (m t s : ℝ) :
    (out - (m : EReal)) * (t : EReal) + (s : EReal) = out * (t : EReal) + ((s : EReal) - (m : EReal) * (t : EReal)) := by
  induction out using EReal.rec with
  | bot =>
    rcases lt_trichotomy t 0 with ht | ht | ht
    · have h1 : (⊥ : EReal) - (m : EReal) = ⊥ := EReal.bot_sub _
      rw [h1, EReal.bot_mul_coe_of_neg ht]
      rw [← EReal.coe_mul, ← EReal.coe_sub, EReal.top_add_coe, EReal.top_add_coe]
    · subst ht
      simp
    · have h1 : (⊥ : EReal) - (m : EReal) = ⊥ := EReal.bot_sub _
      rw [h1, EReal.bot_mul_coe_of_pos ht]
      rw [← EReal.coe_mul, ← EReal.coe_sub, EReal.bot_add, EReal.bot_add]
  | top =>
    rcases lt_trichotomy t 0 with ht | ht | ht
    · have h1 : (⊤ : EReal) - (m : EReal) = ⊤ := EReal.top_sub_coe _
      rw [h1, EReal.top_mul_coe_of_neg ht]
      rw [← EReal.coe_mul, ← EReal.coe_sub, EReal.bot_add, EReal.bot_add]
    · subst ht
      simp
    · have h1 : (⊤ : EReal) - (m : EReal) = ⊤ := EReal.top_sub_coe _
      rw [h1, EReal.top_mul_coe_of_pos ht]
      rw [← EReal.coe_mul, ← EReal.coe_sub, EReal.top_add_coe, EReal.top_add_coe]
  | coe x =>
    rw [← EReal.coe_sub, ← EReal.coe_mul, ← EReal.coe_add, ← EReal.coe_mul, ← EReal.coe_mul, ← EReal.coe_sub, ← EReal.coe_add]
    congr 1
    ring

/-- The reciprocal square root of a positive real is a real. -/
theorem rsqrt_pos_real (x : ℝ) (hx : 0 < x) : Ideal.rsqrt (x : EReal) = (((Real.sqrt x)⁻¹ : ℝ) : EReal) := by
  rw [Ideal.rsqrt_coe, if_neg (not_lt.mpr hx.le), if_neg hx.ne']

theorem bnFold_eq_bnPlain (out : EReal) (w s m v e : ℝ) (hv : 0 ≤ v) (he : 0 < e) :
    bnFold out w s m v e = bnPlain out w s m v e := by
  unfold bnFold bnPlain
  rw [← EReal.coe_add, rsqrt_pos_real (v + e) (by linarith)]
  congr 1
  rw [mul_assoc (out - (m : EReal)), mul_assoc (m : EReal), ← EReal.coe_mul]
  exact (affine_eq out m _ s).symm

/-- The normalised layer in the folded arrangement is the unfolded arrangement of its linear part, entry by entry, when
    the weight, shift and mean are real, the variance is a non-negative real and ε a positive real. -/
theorem layerBN_eq_plain (A X : (⟨2, ![M, K]⟩ : Shape).Idx → EReal) (Wl Wr : (⟨2, ![K, N]⟩ : Shape).Idx → EReal)
    (b w s m v : Fin N → EReal) (e : ℝ) (he : 0 < e)
    (hw : ∀ q, ∃ r : ℝ, w q = (r : EReal)) (hs : ∀ q, ∃ r : ℝ, s q = (r : EReal)) (hm : ∀ q, ∃ r : ℝ, m q = (r : EReal))
    (hv : ∀ q, ∃ r : ℝ, v q = (r : EReal)) (hv0 : ∀ q, (0 : EReal) ≤ v q) :
    layerBN A X Wl Wr b w s m v (e : EReal)
      = fun i => bnPlain (lin A X Wl Wr b i) (w (i 1)) (s (i 1)) (m (i 1)) (v (i 1)) (e : EReal) := by
  funext i
  show bnFold (lin A X Wl Wr b i) (w (i 1)) (s (i 1)) (m (i 1)) (v (i 1)) (e : EReal) = _
  obtain ⟨rw', hw'⟩ := hw (i 1)
  obtain ⟨rs, hs'⟩ := hs (i 1)
  obtain ⟨rm, hm'⟩ := hm (i 1)
  obtain ⟨rv, hv'⟩ := hv (i 1)
  have h0 := hv0 (i 1)
  rw [hw', hs', hm', hv'] at *
  exact bnFold_eq_bnPlain _ rw' rs rm rv e (EReal.coe_nonneg.mp h0) he

/-! ## The layer without normalisation, and rows -/

/-- The one row of a [1, N] array, as a function of the column. -/
def row (v : (⟨2, ![1, N]⟩ : Shape).Idx → EReal) : Fin N → EReal := fun q => v (ix2 (0 : Fin 1) q)

/-- A vector [N] as a function of the column. -/
def vec (v : (⟨1, ![N]⟩ : Shape).Idx → EReal) : Fin N → EReal := fun q => v (ix1 q)

theorem lin_ix2 (A X : (⟨2, ![M, K]⟩ : Shape).Idx → EReal) (Wl Wr : (⟨2, ![K, N]⟩ : Shape).Idx → EReal) (b : Fin N → EReal)
    (a : Fin M) (q : Fin N) :
    lin A X Wl Wr b (ix2 a q)
      = ((∑ c : Fin K, A (ix2 a c) * Wl (ix2 c q)) + ∑ c : Fin K, X (ix2 a c) * Wr (ix2 c q)) + b q := rfl

/-- Row `g` of the layer's linear part only reads row `g` of the two node arrays. -/
theorem lin_rows {M' : Nat} (A X : (⟨2, ![M, K]⟩ : Shape).Idx → EReal) (A' X' : (⟨2, ![M', K]⟩ : Shape).Idx → EReal)
    (Wl Wr : (⟨2, ![K, N]⟩ : Shape).Idx → EReal) (b : Fin N → EReal) (r : Fin M') (g : Fin M)
    (hA : ∀ c : Fin K, A' (ix2 r c) = A (ix2 g c)) (hX : ∀ c : Fin K, X' (ix2 r c) = X (ix2 g c)) (q : Fin N) :
    lin A' X' Wl Wr b (ix2 r q) = lin A X Wl Wr b (ix2 g q) := by
  rw [lin_ix2, lin_ix2]
  simp only [hA, hX]

/-- The same for the layer with normalisation: the column data are read at the column only. -/
theorem layerBN_rows {M' : Nat} (A X : (⟨2, ![M, K]⟩ : Shape).Idx → EReal) (A' X' : (⟨2, ![M', K]⟩ : Shape).Idx → EReal)
    (Wl Wr : (⟨2, ![K, N]⟩ : Shape).Idx → EReal) (b w s m v : Fin N → EReal) (e : EReal) (r : Fin M') (g : Fin M)
    (hA : ∀ c : Fin K, A' (ix2 r c) = A (ix2 g c)) (hX : ∀ c : Fin K, X' (ix2 r c) = X (ix2 g c)) (q : Fin N) :
    layerBN A' X' Wl Wr b w s m v e (ix2 r q) = layerBN A X Wl Wr b w s m v e (ix2 g q) := by
  show bnFold (lin A' X' Wl Wr b (ix2 r q)) (w q) (s q) (m q) (v q) e = bnFold (lin A X Wl Wr b (ix2 g q)) (w q) (s q) (m q) (v q) e
  rw [lin_rows A X A' X' Wl Wr b r g hA hX q]

/-! ## The accelerator body read at an index -/

/-- Two matrix products of rounded operands into zero accumulators, added, plus one bias row repeated down the rows. -/
theorem kernel_lin {φ₁ φ₂ : FTy} (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (hb : (⟨2, ![1, N]⟩ : Shape).Broadcasts ⟨2, ![M, N]⟩)
    (A X : FVec Ideal ⟨2, ![M, K]⟩ φ₁) (Wl Wr : FVec Ideal ⟨2, ![K, N]⟩ φ₂) (b : FVec Ideal ⟨2, ![1, N]⟩ .f32) :
    addf (addf
        (matmul (⟨[1], [0], [0], [1], [], [], w⟩ : DotDims ⟨2, ![M, K]⟩ ⟨2, ![K, N]⟩ ⟨2, ![M, N]⟩) prec
          (truncf ψ A h₁) (truncf ψ Wl h₂) (constant ⟨2, ![M, N]⟩ .f32 0x00000000#32))
        (matmul (⟨[1], [0], [0], [1], [], [], w⟩ : DotDims ⟨2, ![M, K]⟩ ⟨2, ![K, N]⟩ ⟨2, ![M, N]⟩) prec
          (truncf ψ X h₁) (truncf ψ Wr h₂) (constant ⟨2, ![M, N]⟩ .f32 0x00000000#32)))
      (broadcastTo ⟨2, ![M, N]⟩ b hb)
      = lin A X Wl Wr (row b) := by
  funext i
  obtain ⟨a, q, rfl⟩ : ∃ (a : Fin M) (q : Fin N), i = ix2 a q := ⟨i 0, i 1, eq_ix2 i⟩
  rw [lin_ix2, addf_apply, addf_apply, LibDotNN.matmul_rounded_apply, LibDotNN.matmul_rounded_apply,
    broadcastTo_1b_ab_apply]
  rfl

/-- The folded normalisation on rows repeated down the rows, and the rectifier against a splat of the zero word. -/
theorem kernel_bn (hb : (⟨2, ![1, N]⟩ : Shape).Broadcasts ⟨2, ![M, N]⟩) (OUT : FVec Ideal ⟨2, ![M, N]⟩ .f32)
    (W S Mm V : FVec Ideal ⟨2, ![1, N]⟩ .f32) (eb : BitVec 32) :
    maximumf (addf
        (mulf OUT (broadcastTo ⟨2, ![M, N]⟩
          (mulf (rsqrt (addf V (broadcast ⟨2, ![1, N]⟩ (Scalar.ofBits (F := Ideal) .f32 eb)))) W) hb))
        (broadcastTo ⟨2, ![M, N]⟩
          (subf S (mulf (mulf Mm (rsqrt (addf V (broadcast ⟨2, ![1, N]⟩ (Scalar.ofBits (F := Ideal) .f32 eb))))) W)) hb))
      (broadcast ⟨2, ![M, N]⟩ (Scalar.ofBits (F := Ideal) .f32 0x00000000#32))
      = fun i => bnFold (OUT i) (row W (i 1)) (row S (i 1)) (row Mm (i 1)) (row V (i 1)) (Ideal.ofBits .f32 eb) := by
  funext i
  obtain ⟨a, q, rfl⟩ : ∃ (a : Fin M) (q : Fin N), i = ix2 a q := ⟨i 0, i 1, eq_ix2 i⟩
  rw [maximumf_apply, addf_apply, mulf_apply, broadcastTo_1b_ab_apply, broadcastTo_1b_ab_apply]
  rfl

/-! ## The host line read at an index -/

/-- A scalar broadcast to any shape reads the scalar everywhere. -/
theorem scalar_bcast_apply {α : Type} {s : Shape} (dims : Fin (⟨0, ![]⟩ : Shape).rank → Fin s.rank)
    (h : (⟨0, ![]⟩ : Shape).BroadcastsInDim s dims) (x : (⟨0, ![]⟩ : Shape).Idx → α) (i : s.Idx) :
    broadcastInDim s dims h x i = x ix0 :=
  broadcastInDim_apply dims h x i ix0 (fun a => a.elim0)

/-- A vector [N] laid out as a row [1, N] and repeated down M rows reads, at (a, q), the vector at q. -/
theorem row_bcast_apply {α : Type} (d1 : Fin (⟨1, ![N]⟩ : Shape).rank → Fin (⟨2, ![1, N]⟩ : Shape).rank)
    (hd1 : d1 = ![1]) (d2 : Fin (⟨2, ![1, N]⟩ : Shape).rank → Fin (⟨2, ![M, N]⟩ : Shape).rank) (hd2 : d2 = ![0, 1])
    (h1 : (⟨1, ![N]⟩ : Shape).BroadcastsInDim ⟨2, ![1, N]⟩ d1)
    (h2 : (⟨2, ![1, N]⟩ : Shape).BroadcastsInDim ⟨2, ![M, N]⟩ d2)
    (v : (⟨1, ![N]⟩ : Shape).Idx → α) (a : Fin M) (q : Fin N) :
    broadcastInDim ⟨2, ![M, N]⟩ d2 h2 (broadcastInDim ⟨2, ![1, N]⟩ d1 h1 v) (ix2 a q) = v (ix1 q) := by
  subst hd1 hd2
  rw [broadcastInDim_apply _ h2 _ (ix2 a q) (ix2 (0 : Fin 1) q) (fun ax => by
      match ax with
      | ⟨0, _⟩ => rfl
      | ⟨1, _⟩ =>
        show q.val = if N = 1 then 0 else q.val
        split
        · have := q.isLt; omega
        · rfl),
    broadcastInDim_apply _ h1 v (ix2 (0 : Fin 1) q) (ix1 q) (fun ax => by
      match ax with
      | ⟨0, _⟩ =>
        show q.val = if N = 1 then 0 else q.val
        split
        · have := q.isLt; omega
        · rfl)]

/-- Two host products contracting the left operand's last axis with the right's first, a bias array whose every row is
    `b`, added in the order (product + bias) + product. -/
theorem host_lin {φ₁ φ₂ : FTy} (w : DotDims.WF ⟨2, ![M, K]⟩ ⟨2, ![K, N]⟩ ⟨2, ![M, N]⟩ [1] [0] [0] [1] [] [])
    (prec : Option ContractPrecision) (A X : FVec Ideal ⟨2, ![M, K]⟩ φ₁) (Wl Wr : FVec Ideal ⟨2, ![K, N]⟩ φ₂)
    (B : FVec Ideal ⟨2, ![M, N]⟩ .f32) (b : Fin N → EReal) (hB : ∀ a q, B (ix2 a q) = b q) :
    addf (addf
        (Host.dotGeneral (⟨[1], [0], [0], [1], [], [], w⟩ : DotDims ⟨2, ![M, K]⟩ ⟨2, ![K, N]⟩ ⟨2, ![M, N]⟩) prec A Wl) B)
        (Host.dotGeneral (⟨[1], [0], [0], [1], [], [], w⟩ : DotDims ⟨2, ![M, K]⟩ ⟨2, ![K, N]⟩ ⟨2, ![M, N]⟩) prec X Wr)
      = lin A X Wl Wr b := by
  funext i
  obtain ⟨a, q, rfl⟩ : ∃ (a : Fin M) (q : Fin N), i = ix2 a q := ⟨i 0, i 1, eq_ix2 i⟩
  rw [lin_ix2, addf_apply, addf_apply, LibDotNN.dotGeneral_nn_apply, LibDotNN.dotGeneral_nn_apply, hB]
  exact add_right_comm _ _ _

/-- The unfolded normalisation over arrays whose rows are all one vector, and the rectifier against a zero array. -/
theorem host_bn (OUT Mf Rf Wf Sf Z : FVec Ideal ⟨2, ![M, N]⟩ .f32) (w s m v : Fin N → EReal) (e : EReal)
    (hM : ∀ a q, Mf (ix2 a q) = m q) (hR : ∀ a q, Rf (ix2 a q) = Ideal.rsqrt (v q + e))
    (hW : ∀ a q, Wf (ix2 a q) = w q) (hS : ∀ a q, Sf (ix2 a q) = s q)
    (hZ : ∀ i, Z i = Ideal.ofBits .f32 0x00000000#32) :
    maximumf (addf (mulf (mulf (subf OUT Mf) Rf) Wf) Sf) Z
      = fun i => bnPlain (OUT i) (w (i 1)) (s (i 1)) (m (i 1)) (v (i 1)) e := by
  funext i
  obtain ⟨a, q, rfl⟩ : ∃ (a : Fin M) (q : Fin N), i = ix2 a q := ⟨i 0, i 1, eq_ix2 i⟩
  rw [maximumf_apply, addf_apply, mulf_apply, mulf_apply, subf_apply, hM, hR, hW, hS, hZ]
  rfl

end Cert.LibSageLayer

end
-- ==== Proof.Region0.lean ====
/-
  The first accelerator region (128 → 256 features, normalisation and rectifier) as a whole-array function: at any
  entry contents the output array [50000, 256] ends holding the normalised layer, in the folded arrangement, of the
  two node arrays [50000, 128] (the neighbour means and the node features), the two weight arrays, the bias row and
  the four normalisation rows. Grid point t computes rows 2000·t … 2000·t + 1999 from the same rows of the node arrays
  and the whole of the other arrays, and the 25 points' blocks tile the array.
-/
import proofs.«125707_j77833397338551_2_alg».proof.Proof.Gen.KernelIdeal.Frame
import proofs.«125707_j77833397338551_2_alg».proof.Proof.LibSageLayer
import Idealize.ShloMosaic.Lib.Pipeline.Value

set_option maxRecDepth 16384

noncomputable section

namespace Cert.KernelIdeal.Val

open Cert.KernelIdeal Cert.KernelIdeal.Gen Cert.LibSageLayer
open Idealize.ShloMosaic Idealize.ShloMosaic.TcCoe Idealize.SL.Sem Idealize.ShloMosaic.ValueIdx
open Idealize.ShloMosaic.Pipeline (Dat Cfg Window)

theorem hz0 : (![0, 0] : Fin 2 → Nat) = fun _ => 0 := funext fun a => by fin_cases a <;> rfl

/-- The body's linear part is the layer's linear part of its loaded blocks. -/
theorem pay0_lin (x0 x1 : Vec Ideal S2000x128 .f32) (x2 x4 : Vec Ideal S128x256 .f32) (x3 : Vec Ideal S1x256 .f32) :
    k0_pay2 (F := Ideal) x0 x1 x2 x4 x3 = lin x0 x1 x2 x4 (row x3) := by
  unfold k0_pay2
  simp only [shapeCast_self]
  exact kernel_lin dot_S2000x128_S128x256_S2000x256_1_0_0_1_n_n_wf none .bf16 bitsLt_bf16_f32 bitsLt_bf16_f32
    broadcasts_S1x256_S2000x256 x0 x1 x2 x4 x3

/-- The body's stored value is the normalised layer, in the folded arrangement, of its loaded blocks: x5 the weight
    row, x6 the shift row, x7 the mean row, x8 the variance row. -/
theorem pay0_eq (x0 x1 : Vec Ideal S2000x128 .f32) (x2 x4 : Vec Ideal S128x256 .f32) (x3 x5 x6 x7 x8 : Vec Ideal S1x256 .f32) :
    k0_pay1 (F := Ideal) (k0_pay2 x0 x1 x2 x4 x3) (k0_pay4 x8 x5) (k0_pay5 x8 x6 x7 x5)
      = layerBN x0 x1 x2 x4 (row x3) (row x5) (row x6) (row x7) (row x8) (Ideal.ofBits .f32 0x3727C5AC#32) := by
  rw [pay0_lin]
  unfold k0_pay1 k0_pay4 k0_pay5 k0_pay3
  simp only [shapeCast_self]
  exact kernel_bn broadcasts_S1x256_S2000x256 (lin x0 x1 x2 x4 (row x3)) x5 x6 x7 x8 0x3727C5AC#32

/-- The region's output array as one function of the arrays it reads. -/
def G0 (A X : S50000x128.Idx → EReal) (Wl : S128x256.Idx → EReal) (b : S1x256.Idx → EReal) (Wr : S128x256.Idx → EReal) (w s m v : S1x256.Idx → EReal) :
    S50000x256.Idx → EReal := layerBN A X Wl Wr (row b) (row w) (row s) (row m) (row v) (Ideal.ofBits .f32 0x3727C5AC#32)

/-- One entry of a block: when the block's node rows are the arrays' rows at the entry's row, and the other blocks are
    the whole arrays, the layer of the blocks at (r, q) is the layer of the arrays at (row, q). -/
theorem blk0 (A X : S50000x128.Idx → EReal) (Wl Wr : S128x256.Idx → EReal) (b : S1x256.Idx → EReal) (w s m v : S1x256.Idx → EReal)
    (A' X' : S2000x128.Idx → EReal) (Wl' Wr' : S128x256.Idx → EReal) (b' : S1x256.Idx → EReal) (w' s' m' v' : S1x256.Idx → EReal)
    (h2 : Wl' = Wl) (h4 : Wr' = Wr) (h3 : b' = b) (h5 : w' = w) (h6 : s' = s) (h7 : m' = m) (h8 : v' = v)
    (j : S2000x256.Idx) (i : S50000x256.Idx) (hi1 : i 1 = j 1)
    (hA : ∀ q : Fin 128, A' (ix2 (j 0) q) = A (ix2 (i 0) q)) (hX : ∀ q : Fin 128, X' (ix2 (j 0) q) = X (ix2 (i 0) q)) :
    layerBN A' X' Wl' Wr' (row b') (row w') (row s') (row m') (row v') (Ideal.ofBits .f32 0x3727C5AC#32) j = G0 A X Wl b Wr w s m v i := by
  subst h2 h4 h3 h5 h6 h7 h8
  unfold G0
  have ej : j = ix2 (j 0) (j 1) := eq_ix2 j
  have ei : i = ix2 (i 0) (j 1) := (eq_ix2 i).trans (congrArg (fun z => ix2 (i 0) z) hi1)
  rw [ej, ei]
  exact layerBN_rows A X A' X' Wl' Wr' (row b') (row w') (row s') (row m') (row v') (Ideal.ofBits .f32 0x3727C5AC#32) (j 0) (i 0) hA hX (j 1)

variable (V : (c : Dev nD) → (b : Ref sig .tc) → Buf (Elt Ideal) ((c : Thread nD τ).loc b))

/-- The printed index maps over the grid: the two node windows and the output move one block of 2000 rows per point,
    every other window stays on its whole array. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

set_option maxHeartbeats 4000000 in
/-- What grid point t writes back is block t of the whole-array function of the entry contents. -/
theorem flushed0_eq (c : Dev nD) (t : Fin cfg0.N) :
    (dat0 V c).flushed 9 t = ((cfg0.win 9).blk t).view.read (Elt Ideal)
      (G0 (V c main_v22) (V c main_arg0) (V c main_arg2) (V c main_v23) (V c main_arg4) (V c main_v24) (V c main_v25) (V c main_v26) (V c main_v27)) := by
  show (cfg0.win 9).cut (grid0.coords t) ((dat0 V c).after 9 t) = _
  rw [after0_9]
  unfold out0_9
  rw [View.canon_unit_zero hz0]
  simp only [View.ld_unit_zero (S := S2000x128) hz0, View.ld_unit_zero (S := S128x256) hz0, View.ld_unit_zero (S := S1x256) hz0]
  rw [pay0_eq]
  obtain ⟨e0, e1, e2, e3, e4, e5, e6, e7, e8, e9, e10, e11, e12, e13, e14, e15, e16, e17, e18, e19⟩ := idx_facts0 t
  funext j
  show layerBN (iblk0 V c 0 t) (iblk0 V c 1 t) (iblk0 V c 2 t) (iblk0 V c 4 t) (row (iblk0 V c 3 t)) (row (iblk0 V c 5 t)) (row (iblk0 V c 6 t)) (row (iblk0 V c 7 t)) (row (iblk0 V c 8 t)) (Ideal.ofBits .f32 0x3727C5AC#32) j
    = G0 (V c main_v22) (V c main_arg0) (V c main_arg2) (V c main_v23) (V c main_arg4) (V c main_v24) (V c main_v25) (V c main_v26) (V c main_v27) (((cfg0.win 9).blk t).view.emb j)
  have hw2 : iblk0 V c 2 t = V c main_arg2 := by
    funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 256 + 1 * (y 1).val = (y 1).val; omega
  have hw3 : iblk0 V c 3 t = V c main_v23 := by
    funext y
    show V c main_v23 (((cfg0.win 3).blk t).view.emb y) = V c main_v23 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 256 + 1 * (y 1).val = (y 1).val; omega
  have hw4 : iblk0 V c 4 t = V c main_arg4 := by
    funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 256 + 1 * (y 1).val = (y 1).val; omega
  have hw5 : iblk0 V c 5 t = V c main_v24 := by
    funext y
    show V c main_v24 (((cfg0.win 5).blk t).view.emb y) = V c main_v24 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 256 + 1 * (y 1).val = (y 1).val; omega
  have hw6 : iblk0 V c 6 t = V c main_v25 := by
    funext y
    show V c main_v25 (((cfg0.win 6).blk t).view.emb y) = V c main_v25 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 256 + 1 * (y 1).val = (y 1).val; omega
  have hw7 : iblk0 V c 7 t = V c main_v26 := by
    funext y
    show V c main_v26 (((cfg0.win 7).blk t).view.emb y) = V c main_v26 y
    refine congrArg _ (funext fun a => Fin.ext ?_)
    match a with
    | ⟨0, _⟩ => show win0_7.index t (0 : Fin 2) * 1 + 1 * (y 0).val = (y 0).val; omega
    | ⟨1, _⟩ => show win0_7.index t (1 : Fin 2) * 256 + 1 * (y 1).val = (y 1).val; omega
  have hw8 : iblk0 V c 8 t = V c main_v27 := by
    funext y
    show V c main_v27 (((cfg0.win 8).blk t).view.emb y) = V c main_v27 y
    refine congrArg _ (funext fun a => Fin.ext ?_)
    match a with
    | ⟨0, _⟩ => show win0_8.index t (0 : Fin 2) * 1 + 1 * (y 0).val = (y 0).val; omega
    | ⟨1, _⟩ => show win0_8.index t (1 : Fin 2) * 256 + 1 * (y 1).val = (y 1).val; omega
  have hr0 : ∀ q : Fin 128, iblk0 V c 0 t (ix2 (j 0) q) = V c main_v22 (ix2 ((((cfg0.win 9).blk t).view.emb j) 0) q) := by
    intro q
    show V c main_v22 (((cfg0.win 0).blk t).view.emb (ix2 (j 0) q)) = _
    refine congrArg _ (funext fun a => Fin.ext ?_)
    match a with
    | ⟨0, _⟩ => show win0_0.index t (0 : Fin 2) * 2000 + 1 * (j 0).val = win0_9.index t (0 : Fin 2) * 2000 + 1 * (j 0).val; omega
    | ⟨1, _⟩ => show win0_0.index t (1 : Fin 2) * 128 + 1 * q.val = q.val; omega
  have hr1 : ∀ q : Fin 128, iblk0 V c 1 t (ix2 (j 0) q) = V c main_arg0 (ix2 ((((cfg0.win 9).blk t).view.emb j) 0) q) := by
    intro q
    show V c main_arg0 (((cfg0.win 1).blk t).view.emb (ix2 (j 0) q)) = _
    refine congrArg _ (funext fun a => Fin.ext ?_)
    match a with
    | ⟨0, _⟩ => show win0_1.index t (0 : Fin 2) * 2000 + 1 * (j 0).val = win0_9.index t (0 : Fin 2) * 2000 + 1 * (j 0).val; omega
    | ⟨1, _⟩ => show win0_1.index t (1 : Fin 2) * 128 + 1 * q.val = q.val; omega
  have hi1 : (((cfg0.win 9).blk t).view.emb j) 1 = j 1 := by
    refine Fin.ext ?_
    show win0_9.index t (1 : Fin 2) * 256 + 1 * (j 1).val = (j 1).val
    omega
  exact blk0 (V c main_v22) (V c main_arg0) (V c main_arg2) (V c main_arg4) (V c main_v23) (V c main_v24) (V c main_v25) (V c main_v26) (V c main_v27)
    (iblk0 V c 0 t) (iblk0 V c 1 t) (iblk0 V c 2 t) (iblk0 V c 4 t) (iblk0 V c 3 t) (iblk0 V c 5 t) (iblk0 V c 6 t) (iblk0 V c 7 t) (iblk0 V c 8 t)
    hw2 hw4 hw3 hw5 hw6 hw7 hw8 j (((cfg0.win 9).blk t).view.emb j) hi1 hr0 hr1

/-- An index of the array is in point t's block iff its row is among the block's 2000 rows. -/
theorem mem_blk0 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v28).slice (win0_9.rect t)).set ↔ _
  rw [View.set_slice_whole, Rect.mem_set_unit]
  exact Iff.rfl

/-- The 25 blocks of 2000 rows tile the 50000 rows: row r is in the block of point r / 2000. -/
theorem cover0 (i : S50000x256.Idx) :
    ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := rfl
  let t : Fin cfg0.N := ⟨(i 0).val / 2000, by rw [hN]; omega⟩
  obtain ⟨e0, e1, e2, e3, e4, e5, e6, e7, e8, e9, e10, e11, e12, e13, e14, e15, e16, e17, e18, e19⟩ := idx_facts0 t
  have ht : t.val = (i 0).val / 2000 := rfl
  refine ⟨t, flush0_9 t, ?_⟩
  rw [mem_blk0]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 256 ≤ (i 1).val ∧ (i 1).val < win0_9.index t (1 : Fin 2) * 256 + 256; omega

/-- The output array after all the region's write-backs. -/
theorem final0 (c : Dev nD) : (dat0 V c).arrAt 9 cfg0.N
    = G0 (V c main_v22) (V c main_arg0) (V c main_arg2) (V c main_v23) (V c main_arg4) (V c main_v24) (V c main_v25) (V c main_v26) (V c main_v27) :=
  (dat0 V c).arrAt_eq_of_cover 9 _ (fun t _ => flushed0_eq V c t) (cover0)

end Cert.KernelIdeal.Val

end
-- ==== Proof.Region1.lean ====
/-
  The second accelerator region (256 → 256 features, normalisation and rectifier) as a whole-array function: at any
  entry contents the output array [50000, 256] ends holding the normalised layer, in the folded arrangement, of the
  two node arrays [50000, 256] (the neighbour means and the first layer's output), the two weight arrays, the bias
  row and the four normalisation rows. Grid point t computes rows 2000·t … 2000·t + 1999 from the same rows of the
  node arrays and the whole of the other arrays, and the 25 points' blocks tile the array.
-/
import proofs.«125707_j77833397338551_2_alg».proof.Proof.Gen.KernelIdeal.Frame
import proofs.«125707_j77833397338551_2_alg».proof.Proof.LibSageLayer
import Idealize.ShloMosaic.Lib.Pipeline.Value

set_option maxRecDepth 16384

noncomputable section

namespace Cert.KernelIdeal.Val

open Cert.KernelIdeal Cert.KernelIdeal.Gen Cert.LibSageLayer
open Idealize.ShloMosaic Idealize.ShloMosaic.TcCoe Idealize.SL.Sem Idealize.ShloMosaic.ValueIdx
open Idealize.ShloMosaic.Pipeline (Dat Cfg Window)

theorem hz1 : (![0, 0] : Fin 2 → Nat) = fun _ => 0 := funext fun a => by fin_cases a <;> rfl

/-- The body's linear part is the layer's linear part of its loaded blocks. -/
theorem pay1_lin (x0 x1 : Vec Ideal S2000x256 .f32) (x2 x4 : Vec Ideal S256x256 .f32) (x3 : Vec Ideal S1x256 .f32) :
    k1_pay2 (F := Ideal) x0 x1 x2 x4 x3 = lin x0 x1 x2 x4 (row x3) := by
  unfold k1_pay2
  simp only [shapeCast_self]
  exact kernel_lin dot_S2000x256_S256x256_S2000x256_1_0_0_1_n_n_wf none .bf16 bitsLt_bf16_f32 bitsLt_bf16_f32
    broadcasts_S1x256_S2000x256 x0 x1 x2 x4 x3

/-- The body's stored value is the normalised layer, in the folded arrangement, of its loaded blocks: x5 the weight
    row, x6 the shift row, x7 the mean row, x8 the variance row. -/
theorem pay1_eq (x0 x1 : Vec Ideal S2000x256 .f32) (x2 x4 : Vec Ideal S256x256 .f32) (x3 x5 x6 x7 x8 : Vec Ideal S1x256 .f32) :
    k1_pay1 (F := Ideal) (k1_pay2 x0 x1 x2 x4 x3) (k1_pay4 x8 x5) (k1_pay5 x6) (k1_pay6 x8 x7 x5)
      = layerBN x0 x1 x2 x4 (row x3) (row x5) (row x6) (row x7) (row x8) (Ideal.ofBits .f32 0x3727C5AC#32) := by
  rw [pay1_lin]
  unfold k1_pay1 k1_pay4 k1_pay5 k1_pay6 k1_pay3
  simp only [shapeCast_self]
  exact kernel_bn broadcasts_S1x256_S2000x256 (lin x0 x1 x2 x4 (row x3)) x5 x6 x7 x8 0x3727C5AC#32

/-- The region's output array as one function of the arrays it reads. -/
def G1 (A X : S50000x256.Idx → EReal) (Wl : S256x256.Idx → EReal) (b : S1x256.Idx → EReal) (Wr : S256x256.Idx → EReal) (w s m v : S1x256.Idx → EReal) :
    S50000x256.Idx → EReal := layerBN A X Wl Wr (row b) (row w) (row s) (row m) (row v) (Ideal.ofBits .f32 0x3727C5AC#32)

/-- One entry of a block: when the block's node rows are the arrays' rows at the entry's row, and the other blocks are
    the whole arrays, the layer of the blocks at (r, q) is the layer of the arrays at (row, q). -/
theorem blk1 (A X : S50000x256.Idx → EReal) (Wl Wr : S256x256.Idx → EReal) (b : S1x256.Idx → EReal) (w s m v : S1x256.Idx → EReal)
    (A' X' : S2000x256.Idx → EReal) (Wl' Wr' : S256x256.Idx → EReal) (b' : S1x256.Idx → EReal) (w' s' m' v' : S1x256.Idx → EReal)
    (h2 : Wl' = Wl) (h4 : Wr' = Wr) (h3 : b' = b) (h5 : w' = w) (h6 : s' = s) (h7 : m' = m) (h8 : v' = v)
    (j : S2000x256.Idx) (i : S50000x256.Idx) (hi1 : i 1 = j 1)
    (hA : ∀ q : Fin 256, A' (ix2 (j 0) q) = A (ix2 (i 0) q)) (hX : ∀ q : Fin 256, X' (ix2 (j 0) q) = X (ix2 (i 0) q)) :
    layerBN A' X' Wl' Wr' (row b') (row w') (row s') (row m') (row v') (Ideal.ofBits .f32 0x3727C5AC#32) j = G1 A X Wl b Wr w s m v i := by
  subst h2 h4 h3 h5 h6 h7 h8
  unfold G1
  have ej : j = ix2 (j 0) (j 1) := eq_ix2 j
  have ei : i = ix2 (i 0) (j 1) := (eq_ix2 i).trans (congrArg (fun z => ix2 (i 0) z) hi1)
  rw [ej, ei]
  exact layerBN_rows A X A' X' Wl' Wr' (row b') (row w') (row s') (row m') (row v') (Ideal.ofBits .f32 0x3727C5AC#32) (j 0) (i 0) hA hX (j 1)

variable (V : (c : Dev nD) → (b : Ref sig .tc) → Buf (Elt Ideal) ((c : Thread nD τ).loc b))

/-- The printed index maps over the grid: the two node windows and the output move one block of 2000 rows per point,
    every other window stays on its whole array. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

set_option maxHeartbeats 4000000 in
/-- What grid point t writes back is block t of the whole-array function of the entry contents. -/
theorem flushed1_eq (c : Dev nD) (t : Fin cfg1.N) :
    (dat1 V c).flushed 9 t = ((cfg1.win 9).blk t).view.read (Elt Ideal)
      (G1 (V c main_v47) (V c main_v28) (V c main_arg5) (V c main_v48) (V c main_arg7) (V c main_v49) (V c main_v50) (V c main_v51) (V c main_v52)) := by
  show (cfg1.win 9).cut (grid1.coords t) ((dat1 V c).after 9 t) = _
  rw [after1_9]
  unfold out1_9
  rw [View.canon_unit_zero hz1]
  simp only [View.ld_unit_zero (S := S2000x256) hz1, View.ld_unit_zero (S := S256x256) hz1, View.ld_unit_zero (S := S1x256) hz1]
  rw [pay1_eq]
  obtain ⟨e0, e1, e2, e3, e4, e5, e6, e7, e8, e9, e10, e11, e12, e13, e14, e15, e16, e17, e18, e19⟩ := idx_facts1 t
  funext j
  show layerBN (iblk1 V c 0 t) (iblk1 V c 1 t) (iblk1 V c 2 t) (iblk1 V c 4 t) (row (iblk1 V c 3 t)) (row (iblk1 V c 5 t)) (row (iblk1 V c 6 t)) (row (iblk1 V c 7 t)) (row (iblk1 V c 8 t)) (Ideal.ofBits .f32 0x3727C5AC#32) j
    = G1 (V c main_v47) (V c main_v28) (V c main_arg5) (V c main_v48) (V c main_arg7) (V c main_v49) (V c main_v50) (V c main_v51) (V c main_v52) (((cfg1.win 9).blk t).view.emb j)
  have hw2 : iblk1 V c 2 t = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 256 + 1 * (y 1).val = (y 1).val; omega
  have hw3 : iblk1 V c 3 t = V c main_v48 := by
    funext y
    show V c main_v48 (((cfg1.win 3).blk t).view.emb y) = V c main_v48 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 256 + 1 * (y 1).val = (y 1).val; omega
  have hw4 : iblk1 V c 4 t = V c main_arg7 := by
    funext y
    show V c main_arg7 (((cfg1.win 4).blk t).view.emb y) = V c main_arg7 y
    refine congrArg _ (funext fun a => Fin.ext ?_)
    match a with
    | ⟨0, _⟩ => show win1_4.index t (0 : Fin 2) * 256 + 1 * (y 0).val = (y 0).val; omega
    | ⟨1, _⟩ => show win1_4.index t (1 : Fin 2) * 256 + 1 * (y 1).val = (y 1).val; omega
  have hw5 : iblk1 V c 5 t = V c main_v49 := by
    funext y
    show V c main_v49 (((cfg1.win 5).blk t).view.emb y) = V c main_v49 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 256 + 1 * (y 1).val = (y 1).val; omega
  have hw6 : iblk1 V c 6 t = V c main_v50 := by
    funext y
    show V c main_v50 (((cfg1.win 6).blk t).view.emb y) = V c main_v50 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 256 + 1 * (y 1).val = (y 1).val; omega
  have hw7 : iblk1 V c 7 t = V c main_v51 := by
    funext y
    show V c main_v51 (((cfg1.win 7).blk t).view.emb y) = V c main_v51 y
    refine congrArg _ (funext fun a => Fin.ext ?_)
    match a with
    | ⟨0, _⟩ => show win1_7.index t (0 : Fin 2) * 1 + 1 * (y 0).val = (y 0).val; omega
    | ⟨1, _⟩ => show win1_7.index t (1 : Fin 2) * 256 + 1 * (y 1).val = (y 1).val; omega
  have hw8 : iblk1 V c 8 t = V c main_v52 := by
    funext y
    show V c main_v52 (((cfg1.win 8).blk t).view.emb y) = V c main_v52 y
    refine congrArg _ (funext fun a => Fin.ext ?_)
    match a with
    | ⟨0, _⟩ => show win1_8.index t (0 : Fin 2) * 1 + 1 * (y 0).val = (y 0).val; omega
    | ⟨1, _⟩ => show win1_8.index t (1 : Fin 2) * 256 + 1 * (y 1).val = (y 1).val; omega
  have hr0 : ∀ q : Fin 256, iblk1 V c 0 t (ix2 (j 0) q) = V c main_v47 (ix2 ((((cfg1.win 9).blk t).view.emb j) 0) q) := by
    intro q
    show V c main_v47 (((cfg1.win 0).blk t).view.emb (ix2 (j 0) q)) = _
    refine congrArg _ (funext fun a => Fin.ext ?_)
    match a with
    | ⟨0, _⟩ => show win1_0.index t (0 : Fin 2) * 2000 + 1 * (j 0).val = win1_9.index t (0 : Fin 2) * 2000 + 1 * (j 0).val; omega
    | ⟨1, _⟩ => show win1_0.index t (1 : Fin 2) * 256 + 1 * q.val = q.val; omega
  have hr1 : ∀ q : Fin 256, iblk1 V c 1 t (ix2 (j 0) q) = V c main_v28 (ix2 ((((cfg1.win 9).blk t).view.emb j) 0) q) := by
    intro q
    show V c main_v28 (((cfg1.win 1).blk t).view.emb (ix2 (j 0) q)) = _
    refine congrArg _ (funext fun a => Fin.ext ?_)
    match a with
    | ⟨0, _⟩ => show win1_1.index t (0 : Fin 2) * 2000 + 1 * (j 0).val = win1_9.index t (0 : Fin 2) * 2000 + 1 * (j 0).val; omega
    | ⟨1, _⟩ => show win1_1.index t (1 : Fin 2) * 256 + 1 * q.val = q.val; omega
  have hi1 : (((cfg1.win 9).blk t).view.emb j) 1 = j 1 := by
    refine Fin.ext ?_
    show win1_9.index t (1 : Fin 2) * 256 + 1 * (j 1).val = (j 1).val
    omega
  exact blk1 (V c main_v47) (V c main_v28) (V c main_arg5) (V c main_arg7) (V c main_v48) (V c main_v49) (V c main_v50) (V c main_v51) (V c main_v52)
    (iblk1 V c 0 t) (iblk1 V c 1 t) (iblk1 V c 2 t) (iblk1 V c 4 t) (iblk1 V c 3 t) (iblk1 V c 5 t) (iblk1 V c 6 t) (iblk1 V c 7 t) (iblk1 V c 8 t)
    hw2 hw4 hw3 hw5 hw6 hw7 hw8 j (((cfg1.win 9).blk t).view.emb j) hi1 hr0 hr1

/-- An index of the array is in point t's block iff its row is among the block's 2000 rows. -/
theorem mem_blk1 (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v53).slice (win1_9.rect t)).set ↔ _
  rw [View.set_slice_whole, Rect.mem_set_unit]
  exact Iff.rfl

/-- The 25 blocks of 2000 rows tile the 50000 rows: row r is in the block of point r / 2000. -/
theorem cover1 (i : S50000x256.Idx) :
    ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 25 := rfl
  let t : Fin cfg1.N := ⟨(i 0).val / 2000, by rw [hN]; omega⟩
  obtain ⟨e0, e1, e2, e3, e4, e5, e6, e7, e8, e9, e10, e11, e12, e13, e14, e15, e16, e17, e18, e19⟩ := idx_facts1 t
  have ht : t.val = (i 0).val / 2000 := rfl
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 256 ≤ (i 1).val ∧ (i 1).val < win1_9.index t (1 : Fin 2) * 256 + 256; omega

/-- The output array after all the region's write-backs. -/
theorem final1 (c : Dev nD) : (dat1 V c).arrAt 9 cfg1.N
    = G1 (V c main_v47) (V c main_v28) (V c main_arg5) (V c main_v48) (V c main_arg7) (V c main_v49) (V c main_v50) (V c main_v51) (V c main_v52) :=
  (dat1 V c).arrAt_eq_of_cover 9 _ (fun t _ => flushed1_eq V c t) (cover1)

end Cert.KernelIdeal.Val

end
-- ==== Proof.Region2.lean ====
/-
  The third accelerator region (the layer without normalisation) as a whole-array function: at any entry contents
  the output array [50000, 128] ends holding the layer's linear part of the two node arrays [50000, 256] (the
  neighbour means and the node features), the two weight arrays and the bias row. Grid point t computes rows
  2000·t … 2000·t + 1999 from the same rows of the node arrays and the whole weight arrays, and the 25 points'
  blocks tile the array.
-/
import proofs.«125707_j77833397338551_2_alg».proof.Proof.Gen.KernelIdeal.Frame
import proofs.«125707_j77833397338551_2_alg».proof.Proof.LibSageLayer
import Idealize.ShloMosaic.Lib.Pipeline.Value

set_option maxRecDepth 16384

noncomputable section

namespace Cert.KernelIdeal.Val

open Cert.KernelIdeal Cert.KernelIdeal.Gen Cert.LibSageLayer
open Idealize.ShloMosaic Idealize.ShloMosaic.TcCoe Idealize.SL.Sem Idealize.ShloMosaic.ValueIdx
open Idealize.ShloMosaic.Pipeline (Dat Cfg Window)

theorem hz2 : (![0, 0] : Fin 2 → Nat) = fun _ => 0 := funext fun a => by fin_cases a <;> rfl

/-- The body's stored value is the layer's linear part of its loaded blocks. -/
theorem pay2_eq (x0 x1 : Vec Ideal S2000x256 .f32) (x2 x4 : Vec Ideal S256x128 .f32) (x3 : Vec Ideal S1x128 .f32) :
    k2_pay1 (F := Ideal) x0 x1 x2 x4 x3 = lin x0 x1 x2 x4 (row x3) := by
  unfold k2_pay1
  simp only [shapeCast_self]
  exact kernel_lin dot_S2000x256_S256x128_S2000x128_1_0_0_1_n_n_wf none .bf16 bitsLt_bf16_f32 bitsLt_bf16_f32
    broadcasts_S1x128_S2000x128 x0 x1 x2 x4 x3

/-- The region's output array as one function of the arrays it reads. -/
def G2 (A X : S50000x256.Idx → EReal) (Wl : S256x128.Idx → EReal) (b : S1x128.Idx → EReal) (Wr : S256x128.Idx → EReal) :
    S50000x128.Idx → EReal := lin A X Wl Wr (row b)

/-- One entry of a block: when the block's node rows are the arrays' rows at the entry's row, and the other blocks are
    the whole arrays, the layer of the blocks at (r, q) is the layer of the arrays at (row, q). -/
theorem blk2 (A X : S50000x256.Idx → EReal) (Wl Wr : S256x128.Idx → EReal) (b : S1x128.Idx → EReal)
    (A' X' : S2000x256.Idx → EReal) (Wl' Wr' : S256x128.Idx → EReal) (b' : S1x128.Idx → EReal)
    (h2 : Wl' = Wl) (h4 : Wr' = Wr) (h3 : b' = b)
    (j : S2000x128.Idx) (i : S50000x128.Idx) (hi1 : i 1 = j 1)
    (hA : ∀ q : Fin 256, A' (ix2 (j 0) q) = A (ix2 (i 0) q)) (hX : ∀ q : Fin 256, X' (ix2 (j 0) q) = X (ix2 (i 0) q)) :
    lin A' X' Wl' Wr' (row b') j = G2 A X Wl b Wr i := by
  subst h2 h4 h3
  unfold G2
  have ej : j = ix2 (j 0) (j 1) := eq_ix2 j
  have ei : i = ix2 (i 0) (j 1) := (eq_ix2 i).trans (congrArg (fun z => ix2 (i 0) z) hi1)
  rw [ej, ei]
  exact lin_rows A X A' X' Wl' Wr' (row b') (j 0) (i 0) hA hX (j 1)

variable (V : (c : Dev nD) → (b : Ref sig .tc) → Buf (Elt Ideal) ((c : Thread nD τ).loc b))

/-- The printed index maps over the grid: the two node windows and the output move one block of 2000 rows per point,
    every other window stays on its whole array. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

set_option maxHeartbeats 4000000 in
/-- What grid point t writes back is block t of the whole-array function of the entry contents. -/
theorem flushed2_eq (c : Dev nD) (t : Fin cfg2.N) :
    (dat2 V c).flushed 5 t = ((cfg2.win 5).blk t).view.read (Elt Ideal)
      (G2 (V c main_v72) (V c main_v53) (V c main_arg8) (V c main_v73) (V c main_arg10)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x128) hz2, View.ld_unit_zero (S := S1x128) hz2]
  rw [pay2_eq]
  obtain ⟨e0, e1, e2, e3, e4, e5, e6, e7, e8, e9, e10, e11⟩ := idx_facts2 t
  funext j
  show lin (iblk2 V c 0 t) (iblk2 V c 1 t) (iblk2 V c 2 t) (iblk2 V c 4 t) (row (iblk2 V c 3 t)) j
    = G2 (V c main_v72) (V c main_v53) (V c main_arg8) (V c main_v73) (V c main_arg10) (((cfg2.win 5).blk t).view.emb j)
  have hw2 : iblk2 V c 2 t = V c main_arg8 := by
    funext y
    show V c main_arg8 (((cfg2.win 2).blk t).view.emb y) = V c main_arg8 y
    refine congrArg _ (funext fun a => Fin.ext ?_)
    match a with
    | ⟨0, _⟩ => show win2_2.index t (0 : Fin 2) * 256 + 1 * (y 0).val = (y 0).val; omega
    | ⟨1, _⟩ => show win2_2.index t (1 : Fin 2) * 128 + 1 * (y 1).val = (y 1).val; omega
  have hw3 : iblk2 V c 3 t = V c main_v73 := by
    funext y
    show V c main_v73 (((cfg2.win 3).blk t).view.emb y) = V c main_v73 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hw4 : iblk2 V c 4 t = V c main_arg10 := by
    funext y
    show V c main_arg10 (((cfg2.win 4).blk t).view.emb y) = V c main_arg10 y
    refine congrArg _ (funext fun a => Fin.ext ?_)
    match a with
    | ⟨0, _⟩ => show win2_4.index t (0 : Fin 2) * 256 + 1 * (y 0).val = (y 0).val; omega
    | ⟨1, _⟩ => show win2_4.index t (1 : Fin 2) * 128 + 1 * (y 1).val = (y 1).val; omega
  have hr0 : ∀ q : Fin 256, iblk2 V c 0 t (ix2 (j 0) q) = V c main_v72 (ix2 ((((cfg2.win 5).blk t).view.emb j) 0) q) := by
    intro q
    show V c main_v72 (((cfg2.win 0).blk t).view.emb (ix2 (j 0) q)) = _
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * q.val = q.val; omega
  have hr1 : ∀ q : Fin 256, iblk2 V c 1 t (ix2 (j 0) q) = V c main_v53 (ix2 ((((cfg2.win 5).blk t).view.emb j) 0) q) := by
    intro q
    show V c main_v53 (((cfg2.win 1).blk t).view.emb (ix2 (j 0) q)) = _
    refine congrArg _ (funext fun a => Fin.ext ?_)
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 256 + 1 * q.val = q.val; omega
  have hi1 : (((cfg2.win 5).blk t).view.emb j) 1 = j 1 := by
    refine Fin.ext ?_
    show win2_5.index t (1 : Fin 2) * 128 + 1 * (j 1).val = (j 1).val
    omega
  exact blk2 (V c main_v72) (V c main_v53) (V c main_arg8) (V c main_arg10) (V c main_v73)
    (iblk2 V c 0 t) (iblk2 V c 1 t) (iblk2 V c 2 t) (iblk2 V c 4 t) (iblk2 V c 3 t)
    hw2 hw4 hw3 j (((cfg2.win 5).blk t).view.emb j) hi1 hr0 hr1

/-- An index of the array is in point t's block iff its row is among the block's 2000 rows. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v74).slice (win2_5.rect t)).set ↔ _
  rw [View.set_slice_whole, Rect.mem_set_unit]
  exact Iff.rfl

/-- The 25 blocks of 2000 rows tile the 50000 rows: row r is in the block of point r / 2000. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := rfl
  let t : Fin cfg2.N := ⟨(i 0).val / 2000, by rw [hN]; omega⟩
  obtain ⟨e0, e1, e2, e3, e4, e5, e6, e7, e8, e9, e10, e11⟩ := idx_facts2 t
  have ht : t.val = (i 0).val / 2000 := rfl
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after all the region's write-backs. -/
theorem final2 (c : Dev nD) : (dat2 V c).arrAt 5 cfg2.N
    = G2 (V c main_v72) (V c main_v53) (V c main_arg8) (V c main_v73) (V c main_arg10) :=
  (dat2 V c).arrAt_eq_of_cover 5 _ (fun t _ => flushed2_eq V c t) (cover2)

end Cert.KernelIdeal.Val

end
-- ==== Proof.StagesK.lean ====
/-
  The host stretches of the idealized kernel's program as functions of the arrays they read: the source and
  destination index vectors cut out of the edge list, the mean over incoming edges of a node array (gather the source
  rows, add them up per destination, divide by the in-degree or by one where it is zero) at 128 and at 256 features,
  and a vector laid out as one row.
-/
import proofs.«125707_j77833397338551_2_alg».proof.Proof.Gen.KernelIdeal.Launch
import Idealize.ShloMosaic.Lib.StableHlo.Run

noncomputable section

namespace Cert.KernelIdeal.Stages

open Cert.KernelIdeal Cert.KernelIdeal.Gen Idealize.ShloMosaic Idealize.ShloMosaic.TcCoe Idealize.SL.Sem

variable {F : FTy → Type} [FloatOps F]

/-- Row 0 of the edge list: the source node of every edge. -/
def srcK (ei : (⟨S2x800000, .i32⟩ : BufTy).Contents (Elt F)) : (⟨S800000, .i32⟩ : BufTy).Contents (Elt F) :=
  (shapeCast _ (((extractStridedSlice S1x800000 ![0, 0] · slices_S2x800000_S1x800000_0_0) : (⟨S2x800000, .i32⟩ : BufTy).Contents (Elt F) → (⟨S1x800000, .i32⟩ : BufTy).Contents (Elt F)) ei) shapeCasts_S1x800000_S800000)

/-- Row 1 of the edge list: the destination node of every edge. -/
def dstK (ei : (⟨S2x800000, .i32⟩ : BufTy).Contents (Elt F)) : (⟨S800000, .i32⟩ : BufTy).Contents (Elt F) :=
  (shapeCast _ (((extractStridedSlice S1x800000 ![1, 0] · slices_S2x800000_S1x800000_1_0) : (⟨S2x800000, .i32⟩ : BufTy).Contents (Elt F) → (⟨S1x800000, .i32⟩ : BufTy).Contents (Elt F)) ei) shapeCasts_S1x800000_S800000)

/-- The mean of the source rows over the edges arriving at each node, 128 features. -/
def mean128K (x : (⟨S50000x128, .f32⟩ : BufTy).Contents (Elt F)) (src dst : (⟨S800000, .i32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) ((constantI S_ 32 0#32)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) ((constantI S_ 32 50000#32)))) src)))) ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) ((constant S_ .f32 0x3F800000#32)))) ((broadcastInDim S50000 ![] bcast_S_S50000 : (⟨S_, .f32⟩ : BufTy).Contents (Elt F) → (⟨S50000, .f32⟩ : BufTy).Contents (Elt F)) ((constant S_ .f32 0x3F800000#32)))))))

/-- The same at 256 features. -/
def mean256K (h : (⟨S50000x256, .f32⟩ : BufTy).Contents (Elt F)) (src dst : (⟨S800000, .i32⟩ : BufTy).Contents (Elt F)) : (⟨S50000x256, .f32⟩ : BufTy).Contents (Elt F) :=
  ((Host.divf : (⟨S50000x256, .f32⟩ : BufTy).Contents (Elt F) → (⟨S50000x256, .f32⟩ : BufTy).Contents (Elt F) → (⟨S50000x256, .f32⟩ : BufTy).Contents (Elt F)) (((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) (((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) h ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) ((constantI S_ 32 0#32)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) ((constantI S_ 32 50000#32)))) src)))) ((broadcastInDim S50000x256 ![0, 1] bcast_S50000x1_S50000x256_0_1 : (⟨S50000x1, .f32⟩ : BufTy).Contents (Elt F) → (⟨S50000x256, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) ((constant S_ .f32 0x3F800000#32)))) ((broadcastInDim S50000 ![] bcast_S_S50000 : (⟨S_, .f32⟩ : BufTy).Contents (Elt F) → (⟨S50000, .f32⟩ : BufTy).Contents (Elt F)) ((constant S_ .f32 0x3F800000#32)))))))

/-- A vector of 256 entries as one row. -/
def row256K (v : (⟨S256, .f32⟩ : BufTy).Contents (Elt F)) : (⟨S1x256, .f32⟩ : BufTy).Contents (Elt F) := shapeCast _ v shapeCasts_S256_S1x256

/-- A vector of 128 entries as one row. -/
def row128K (v : (⟨S128, .f32⟩ : BufTy).Contents (Elt F)) : (⟨S1x128, .f32⟩ : BufTy).Contents (Elt F) := shapeCast _ v shapeCasts_S128_S1x128

end Cert.KernelIdeal.Stages

end
-- ==== Proof.Stretch0.lean ====
/-
  The first stretch of host operations read at the buffers the regions take: the neighbour means of the node features, the two index vectors, the bias and the four normalisation vectors of the first layer as rows, and the argument arrays it leaves untouched.
-/
import proofs.«125707_j77833397338551_2_alg».proof.Proof.StagesK

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F] (Wb : Valuation τ sig (Elt F))

set_option maxHeartbeats 4000000 in
theorem s0_main_v22 : StableHlo.after hostOps0 Wb (Proc.devRef .tc main_v22) = mean128K (Wb (Proc.devRef .tc main_arg0)) (srcK (Wb (Proc.devRef .tc main_arg1))) (dstK (Wb (Proc.devRef .tc main_arg1))) := by
  after_results_simp <;> rfl

set_option maxHeartbeats 4000000 in
theorem s0_main_v1 : StableHlo.after hostOps0 Wb (Proc.devRef .tc main_v1) = srcK (Wb (Proc.devRef .tc main_arg1)) := by
  after_results_simp <;> rfl

set_option maxHeartbeats 4000000 in
theorem s0_main_v3 : StableHlo.after hostOps0 Wb (Proc.devRef .tc main_v3) = dstK (Wb (Proc.devRef .tc main_arg1)) := by
  after_results_simp <;> rfl

set_option maxHeartbeats 4000000 in
theorem s0_main_v23 : StableHlo.after hostOps0 Wb (Proc.devRef .tc main_v23) = row256K (Wb (Proc.devRef .tc main_arg3)) := by
  after_results_simp <;> rfl

set_option maxHeartbeats 4000000 in
theorem s0_main_v24 : StableHlo.after hostOps0 Wb (Proc.devRef .tc main_v24) = row256K (Wb (Proc.devRef .tc main_arg11)) := by
  after_results_simp <;> rfl

set_option maxHeartbeats 4000000 in
theorem s0_main_v25 : StableHlo.after hostOps0 Wb (Proc.devRef .tc main_v25) = row256K (Wb (Proc.devRef .tc main_arg12)) := by
  after_results_simp <;> rfl

set_option maxHeartbeats 4000000 in
theorem s0_main_v26 : StableHlo.after hostOps0 Wb (Proc.devRef .tc main_v26) = row256K (Wb (Proc.devRef .tc main_arg13)) := by
  after_results_simp <;> rfl

set_option maxHeartbeats 4000000 in
theorem s0_main_v27 : StableHlo.after hostOps0 Wb (Proc.devRef .tc main_v27) = row256K (Wb (Proc.devRef .tc main_arg14)) := by
  after_results_simp <;> rfl

set_option maxHeartbeats 4000000 in
theorem s0_main_arg0 : StableHlo.after hostOps0 Wb (Proc.devRef .tc main_arg0) = Wb (Proc.devRef .tc main_arg0) := by
  after_results_simp <;> rfl

set_option maxHeartbeats 4000000 in
theorem s0_main_arg2 : StableHlo.after hostOps0 Wb (Proc.devRef .tc main_arg2) = Wb (Proc.devRef .tc main_arg2) := by
  after_results_simp <;> rfl

set_option maxHeartbeats 4000000 in
theorem s0_main_arg4 : StableHlo.after hostOps0 Wb (Proc.devRef .tc main_arg4) = Wb (Proc.devRef .tc main_arg4) := by
  after_results_simp <;> rfl

set_option maxHeartbeats 4000000 in
theorem s0_main_arg5 : StableHlo.after hostOps0 Wb (Proc.devRef .tc main_arg5) = Wb (Proc.devRef .tc main_arg5) := by
  after_results_simp <;> rfl

set_option maxHeartbeats 4000000 in
theorem s0_main_arg6 : StableHlo.after hostOps0 Wb (Proc.devRef .tc main_arg6) = Wb (Proc.devRef .tc main_arg6) := by
  after_results_simp <;> rfl

set_option maxHeartbeats 4000000 in
theorem s0_main_arg7 : StableHlo.after hostOps0 Wb (Proc.devRef .tc main_arg7) = Wb (Proc.devRef .tc main_arg7) := by
  after_results_simp <;> rfl

set_option maxHeartbeats 4000000 in
theorem s0_main_arg8 : StableHlo.after hostOps0 Wb (Proc.devRef .tc main_arg8) = Wb (Proc.devRef .tc main_arg8) := by
  after_results_simp <;> rfl

set_option maxHeartbeats 4000000 in
theorem s0_main_arg9 : StableHlo.after hostOps0 Wb (Proc.devRef .tc main_arg9) = Wb (Proc.devRef .tc main_arg9) := by
  after_results_simp <;> rfl

set_option maxHeartbeats 4000000 in
theorem s0_main_arg10 : StableHlo.after hostOps0 Wb (Proc.devRef .tc main_arg10) = Wb (Proc.devRef .tc main_arg10) := by
  after_results_simp <;> rfl

set_option maxHeartbeats 4000000 in
theorem s0_main_arg15 : StableHlo.after hostOps0 Wb (Proc.devRef .tc main_arg15) = Wb (Proc.devRef .tc main_arg15) := by
  after_results_simp <;> rfl

set_option maxHeartbeats 4000000 in
theorem s0_main_arg16 : StableHlo.after hostOps0 Wb (Proc.devRef .tc main_arg16) = Wb (Proc.devRef .tc main_arg16) := by
  after_results_simp <;> rfl

set_option maxHeartbeats 4000000 in
theorem s0_main_arg17 : StableHlo.after hostOps0 Wb (Proc.devRef .tc main_arg17) = Wb (Proc.devRef .tc main_arg17) := by
  after_results_simp <;> rfl

set_option maxHeartbeats 4000000 in
theorem s0_main_arg18 : StableHlo.after hostOps0 Wb (Proc.devRef .tc main_arg18) = Wb (Proc.devRef .tc main_arg18) := by
  after_results_simp <;> rfl

end Cert.KernelIdeal.Stages

end
-- ==== Proof.Stretch1.lean ====
/-
  The second stretch of host operations read at the buffers the regions take: the neighbour means of the first layer's output, the bias and the four normalisation vectors of the second layer as rows, and the buffers it leaves untouched.
-/
import proofs.«125707_j77833397338551_2_alg».proof.Proof.StagesK

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F] (Wb : Valuation τ sig (Elt F))

set_option maxHeartbeats 4000000 in
theorem s1_main_v47 : StableHlo.after hostOps1 Wb (Proc.devRef .tc main_v47) = mean256K (Wb (Proc.devRef .tc main_v28)) (Wb (Proc.devRef .tc main_v1)) (Wb (Proc.devRef .tc main_v3)) := by
  after_results_simp <;> rfl

set_option maxHeartbeats 4000000 in
theorem s1_main_v48 : StableHlo.after hostOps1 Wb (Proc.devRef .tc main_v48) = row256K (Wb (Proc.devRef .tc main_arg6)) := by
  after_results_simp <;> rfl

set_option maxHeartbeats 4000000 in
theorem s1_main_v49 : StableHlo.after hostOps1 Wb (Proc.devRef .tc main_v49) = row256K (Wb (Proc.devRef .tc main_arg15)) := by
  after_results_simp <;> rfl

set_option maxHeartbeats 4000000 in
theorem s1_main_v50 : StableHlo.after hostOps1 Wb (Proc.devRef .tc main_v50) = row256K (Wb (Proc.devRef .tc main_arg16)) := by
  after_results_simp <;> rfl

set_option maxHeartbeats 4000000 in
theorem s1_main_v51 : StableHlo.after hostOps1 Wb (Proc.devRef .tc main_v51) = row256K (Wb (Proc.devRef .tc main_arg17)) := by
  after_results_simp <;> rfl

set_option maxHeartbeats 4000000 in
theorem s1_main_v52 : StableHlo.after hostOps1 Wb (Proc.devRef .tc main_v52) = row256K (Wb (Proc.devRef .tc main_arg18)) := by
  after_results_simp <;> rfl

set_option maxHeartbeats 4000000 in
theorem s1_main_v28 : StableHlo.after hostOps1 Wb (Proc.devRef .tc main_v28) = Wb (Proc.devRef .tc main_v28) := by
  after_results_simp <;> rfl

set_option maxHeartbeats 4000000 in
theorem s1_main_arg5 : StableHlo.after hostOps1 Wb (Proc.devRef .tc main_arg5) = Wb (Proc.devRef .tc main_arg5) := by
  after_results_simp <;> rfl

set_option maxHeartbeats 4000000 in
theorem s1_main_arg7 : StableHlo.after hostOps1 Wb (Proc.devRef .tc main_arg7) = Wb (Proc.devRef .tc main_arg7) := by
  after_results_simp <;> rfl

set_option maxHeartbeats 4000000 in
theorem s1_main_v1 : StableHlo.after hostOps1 Wb (Proc.devRef .tc main_v1) = Wb (Proc.devRef .tc main_v1) := by
  after_results_simp <;> rfl

set_option maxHeartbeats 4000000 in
theorem s1_main_v3 : StableHlo.after hostOps1 Wb (Proc.devRef .tc main_v3) = Wb (Proc.devRef .tc main_v3) := by
  after_results_simp <;> rfl

set_option maxHeartbeats 4000000 in
theorem s1_main_arg8 : StableHlo.after hostOps1 Wb (Proc.devRef .tc main_arg8) = Wb (Proc.devRef .tc main_arg8) := by
  after_results_simp <;> rfl

set_option maxHeartbeats 4000000 in
theorem s1_main_arg9 : StableHlo.after hostOps1 Wb (Proc.devRef .tc main_arg9) = Wb (Proc.devRef .tc main_arg9) := by
  after_results_simp <;> rfl

set_option maxHeartbeats 4000000 in
theorem s1_main_arg10 : StableHlo.after hostOps1 Wb (Proc.devRef .tc main_arg10) = Wb (Proc.devRef .tc main_arg10) := by
  after_results_simp <;> rfl

end Cert.KernelIdeal.Stages

end
-- ==== Proof.Stretch2.lean ====
/-
  The third stretch of host operations read at the buffers the third region takes: the neighbour means of the second layer's output, the bias as a row, and the buffers it leaves untouched.
-/
import proofs.«125707_j77833397338551_2_alg».proof.Proof.StagesK

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F] (Wb : Valuation τ sig (Elt F))

set_option maxHeartbeats 4000000 in
theorem s2_main_v72 : StableHlo.after hostOps2 Wb (Proc.devRef .tc main_v72) = mean256K (Wb (Proc.devRef .tc main_v53)) (Wb (Proc.devRef .tc main_v1)) (Wb (Proc.devRef .tc main_v3)) := by
  after_results_simp <;> rfl

set_option maxHeartbeats 4000000 in
theorem s2_main_v73 : StableHlo.after hostOps2 Wb (Proc.devRef .tc main_v73) = row128K (Wb (Proc.devRef .tc main_arg9)) := by
  after_results_simp <;> rfl

set_option maxHeartbeats 4000000 in
theorem s2_main_v53 : StableHlo.after hostOps2 Wb (Proc.devRef .tc main_v53) = Wb (Proc.devRef .tc main_v53) := by
  after_results_simp <;> rfl

set_option maxHeartbeats 4000000 in
theorem s2_main_arg8 : StableHlo.after hostOps2 Wb (Proc.devRef .tc main_arg8) = Wb (Proc.devRef .tc main_arg8) := by
  after_results_simp <;> rfl

set_option maxHeartbeats 4000000 in
theorem s2_main_arg10 : StableHlo.after hostOps2 Wb (Proc.devRef .tc main_arg10) = Wb (Proc.devRef .tc main_arg10) := by
  after_results_simp <;> rfl

end Cert.KernelIdeal.Stages

end
-- ==== Proof.KernelValue.lean ====
/-
  The idealized kernel's result as one function of the argument arrays. The fold through the program's six segments
  is opened from the end: the result buffer holds the third region's output array, which is the third layer of (the
  neighbour means of the second layer's output, that output); the second layer's output is the second region's
  output array, the normalised layer of (the neighbour means of the first layer's output, that output); the first
  layer's output is the first region's output array, the normalised layer of (the neighbour means of the node
  features, the node features). Every other buffer a region or a stretch reads is traced back to an argument array:
  no region writes it and no stretch writes it.
-/
import proofs.«125707_j77833397338551_2_alg».proof.Proof.KernelRun
import proofs.«125707_j77833397338551_2_alg».proof.Proof.Region0
import proofs.«125707_j77833397338551_2_alg».proof.Proof.Region1
import proofs.«125707_j77833397338551_2_alg».proof.Proof.Region2
import proofs.«125707_j77833397338551_2_alg».proof.Proof.Stretch0
import proofs.«125707_j77833397338551_2_alg».proof.Proof.Stretch1
import proofs.«125707_j77833397338551_2_alg».proof.Proof.Stretch2

set_option maxRecDepth 16384

noncomputable section

namespace Cert.KernelIdeal.Val

open Cert.KernelIdeal Cert.KernelIdeal.Gen Cert.KernelIdeal.Stages Cert.LibSageLayer
open Idealize.ShloMosaic Idealize.ShloMosaic.TcCoe Idealize.SL.Sem Idealize.ShloMosaic.ValueIdx

variable (m : (ℓ : Loc nD τ sig) → Buf (Elt Ideal) ℓ) (ρ : Dev nD → PrngReg)

/-- An argument array as launched, on device c. -/
abbrev arg (b : Ref sig .tc) (c : Dev nD) : Buf (Elt Ideal) ((c : Thread nD τ).loc b) := m ((c : Thread nD τ).loc b)

/-- The first layer's output. -/
def H1 (c : Dev nD) : S50000x256.Idx → EReal :=
  G0 (mean128K (arg m main_arg0 c) (srcK (arg m main_arg1 c)) (dstK (arg m main_arg1 c))) (arg m main_arg0 c) (arg m main_arg2 c) (row256K (arg m main_arg3 c)) (arg m main_arg4 c)
    (row256K (arg m main_arg11 c)) (row256K (arg m main_arg12 c)) (row256K (arg m main_arg13 c)) (row256K (arg m main_arg14 c))

/-- The second layer's output. -/
def H2 (c : Dev nD) : S50000x256.Idx → EReal :=
  G1 (mean256K (H1 m c) (srcK (arg m main_arg1 c)) (dstK (arg m main_arg1 c))) (H1 m c) (arg m main_arg5 c) (row256K (arg m main_arg6 c)) (arg m main_arg7 c)
    (row256K (arg m main_arg15 c)) (row256K (arg m main_arg16 c)) (row256K (arg m main_arg17 c)) (row256K (arg m main_arg18 c))

/-- The third layer's output: the program's result. -/
def OUT (c : Dev nD) : S50000x128.Idx → EReal :=
  G2 (mean256K (H2 m c) (srcK (arg m main_arg1 c)) (dstK (arg m main_arg1 c))) (H2 m c) (arg m main_arg8 c) (row128K (arg m main_arg9 c)) (arg m main_arg10 c)

/-! ## After the first region -/

theorem W2_main_v28 (c : Dev nD) : W2 m ρ c (Proc.devRef .tc main_v28) = H1 m c := by
  refine (W2_arr m ρ c 9).trans ((final0 (V1 m ρ) c).trans ?_)
  have r22 : V1 m ρ c main_v22 = mean128K (arg m main_arg0 c) (srcK (arg m main_arg1 c)) (dstK (arg m main_arg1 c)) := s0_main_v22 (W0 m ρ c)
  have r0 : V1 m ρ c main_arg0 = arg m main_arg0 c := s0_main_arg0 (W0 m ρ c)
  have r2 : V1 m ρ c main_arg2 = arg m main_arg2 c := s0_main_arg2 (W0 m ρ c)
  have r23 : V1 m ρ c main_v23 = row256K (arg m main_arg3 c) := s0_main_v23 (W0 m ρ c)
  have r4 : V1 m ρ c main_arg4 = arg m main_arg4 c := s0_main_arg4 (W0 m ρ c)
  have r24 : V1 m ρ c main_v24 = row256K (arg m main_arg11 c) := s0_main_v24 (W0 m ρ c)
  have r25 : V1 m ρ c main_v25 = row256K (arg m main_arg12 c) := s0_main_v25 (W0 m ρ c)
  have r26 : V1 m ρ c main_v26 = row256K (arg m main_arg13 c) := s0_main_v26 (W0 m ρ c)
  have r27 : V1 m ρ c main_v27 = row256K (arg m main_arg14 c) := s0_main_v27 (W0 m ρ c)
  rw [r22, r0, r2, r23, r4, r24, r25, r26, r27]
  rfl

theorem W2_main_v1 (c : Dev nD) : W2 m ρ c (Proc.devRef .tc main_v1) = srcK (arg m main_arg1 c) :=
  (W2_of_ne m ρ c main_v1 (by decide)).trans (s0_main_v1 (W0 m ρ c))
theorem W2_main_v3 (c : Dev nD) : W2 m ρ c (Proc.devRef .tc main_v3) = dstK (arg m main_arg1 c) :=
  (W2_of_ne m ρ c main_v3 (by decide)).trans (s0_main_v3 (W0 m ρ c))
theorem W2_main_arg5 (c : Dev nD) : W2 m ρ c (Proc.devRef .tc main_arg5) = arg m main_arg5 c :=
  (W2_of_ne m ρ c main_arg5 (by decide)).trans (s0_main_arg5 (W0 m ρ c))
theorem W2_main_arg6 (c : Dev nD) : W2 m ρ c (Proc.devRef .tc main_arg6) = arg m main_arg6 c :=
  (W2_of_ne m ρ c main_arg6 (by decide)).trans (s0_main_arg6 (W0 m ρ c))
theorem W2_main_arg7 (c : Dev nD) : W2 m ρ c (Proc.devRef .tc main_arg7) = arg m main_arg7 c :=
  (W2_of_ne m ρ c main_arg7 (by decide)).trans (s0_main_arg7 (W0 m ρ c))
theorem W2_main_arg8 (c : Dev nD) : W2 m ρ c (Proc.devRef .tc main_arg8) = arg m main_arg8 c :=
  (W2_of_ne m ρ c main_arg8 (by decide)).trans (s0_main_arg8 (W0 m ρ c))
theorem W2_main_arg9 (c : Dev nD) : W2 m ρ c (Proc.devRef .tc main_arg9) = arg m main_arg9 c :=
  (W2_of_ne m ρ c main_arg9 (by decide)).trans (s0_main_arg9 (W0 m ρ c))
theorem W2_main_arg10 (c : Dev nD) : W2 m ρ c (Proc.devRef .tc main_arg10) = arg m main_arg10 c :=
  (W2_of_ne m ρ c main_arg10 (by decide)).trans (s0_main_arg10 (W0 m ρ c))
theorem W2_main_arg15 (c : Dev nD) : W2 m ρ c (Proc.devRef .tc main_arg15) = arg m main_arg15 c :=
  (W2_of_ne m ρ c main_arg15 (by decide)).trans (s0_main_arg15 (W0 m ρ c))
theorem W2_main_arg16 (c : Dev nD) : W2 m ρ c (Proc.devRef .tc main_arg16) = arg m main_arg16 c :=
  (W2_of_ne m ρ c main_arg16 (by decide)).trans (s0_main_arg16 (W0 m ρ c))
theorem W2_main_arg17 (c : Dev nD) : W2 m ρ c (Proc.devRef .tc main_arg17) = arg m main_arg17 c :=
  (W2_of_ne m ρ c main_arg17 (by decide)).trans (s0_main_arg17 (W0 m ρ c))
theorem W2_main_arg18 (c : Dev nD) : W2 m ρ c (Proc.devRef .tc main_arg18) = arg m main_arg18 c :=
  (W2_of_ne m ρ c main_arg18 (by decide)).trans (s0_main_arg18 (W0 m ρ c))

/-! ## After the second region -/

theorem W4_main_v53 (c : Dev nD) : W4 m ρ c (Proc.devRef .tc main_v53) = H2 m c := by
  refine (W4_arr m ρ c 9).trans ((final1 (V3 m ρ) c).trans ?_)
  have r47 : V3 m ρ c main_v47 = mean256K (H1 m c) (srcK (arg m main_arg1 c)) (dstK (arg m main_arg1 c)) := by
    refine (s1_main_v47 (W2 m ρ c)).trans ?_
    rw [W2_main_v28 m ρ c, W2_main_v1 m ρ c, W2_main_v3 m ρ c]
  have r28 : V3 m ρ c main_v28 = H1 m c := (s1_main_v28 (W2 m ρ c)).trans (W2_main_v28 m ρ c)
  have r5 : V3 m ρ c main_arg5 = arg m main_arg5 c := (s1_main_arg5 (W2 m ρ c)).trans (W2_main_arg5 m ρ c)
  have r48 : V3 m ρ c main_v48 = row256K (arg m main_arg6 c) := (s1_main_v48 (W2 m ρ c)).trans (congrArg row256K (W2_main_arg6 m ρ c))
  have r7 : V3 m ρ c main_arg7 = arg m main_arg7 c := (s1_main_arg7 (W2 m ρ c)).trans (W2_main_arg7 m ρ c)
  have r49 : V3 m ρ c main_v49 = row256K (arg m main_arg15 c) := (s1_main_v49 (W2 m ρ c)).trans (congrArg row256K (W2_main_arg15 m ρ c))
  have r50 : V3 m ρ c main_v50 = row256K (arg m main_arg16 c) := (s1_main_v50 (W2 m ρ c)).trans (congrArg row256K (W2_main_arg16 m ρ c))
  have r51 : V3 m ρ c main_v51 = row256K (arg m main_arg17 c) := (s1_main_v51 (W2 m ρ c)).trans (congrArg row256K (W2_main_arg17 m ρ c))
  have r52 : V3 m ρ c main_v52 = row256K (arg m main_arg18 c) := (s1_main_v52 (W2 m ρ c)).trans (congrArg row256K (W2_main_arg18 m ρ c))
  rw [r47, r28, r5, r48, r7, r49, r50, r51, r52]
  rfl

theorem W4_main_v1 (c : Dev nD) : W4 m ρ c (Proc.devRef .tc main_v1) = srcK (arg m main_arg1 c) :=
  (W4_of_ne m ρ c main_v1 (by decide)).trans ((s1_main_v1 (W2 m ρ c)).trans (W2_main_v1 m ρ c))
theorem W4_main_v3 (c : Dev nD) : W4 m ρ c (Proc.devRef .tc main_v3) = dstK (arg m main_arg1 c) :=
  (W4_of_ne m ρ c main_v3 (by decide)).trans ((s1_main_v3 (W2 m ρ c)).trans (W2_main_v3 m ρ c))
theorem W4_main_arg8 (c : Dev nD) : W4 m ρ c (Proc.devRef .tc main_arg8) = arg m main_arg8 c :=
  (W4_of_ne m ρ c main_arg8 (by decide)).trans ((s1_main_arg8 (W2 m ρ c)).trans (W2_main_arg8 m ρ c))
theorem W4_main_arg9 (c : Dev nD) : W4 m ρ c (Proc.devRef .tc main_arg9) = arg m main_arg9 c :=
  (W4_of_ne m ρ c main_arg9 (by decide)).trans ((s1_main_arg9 (W2 m ρ c)).trans (W2_main_arg9 m ρ c))
theorem W4_main_arg10 (c : Dev nD) : W4 m ρ c (Proc.devRef .tc main_arg10) = arg m main_arg10 c :=
  (W4_of_ne m ρ c main_arg10 (by decide)).trans ((s1_main_arg10 (W2 m ρ c)).trans (W2_main_arg10 m ρ c))

/-! ## After the third region: the result -/

theorem W6_main_v74 (c : Dev nD) : W6 m ρ c (Proc.devRef .tc main_v74) = OUT m c := by
  refine (W6_arr m ρ c 5).trans ((final2 (V5 m ρ) c).trans ?_)
  have r72 : V5 m ρ c main_v72 = mean256K (H2 m c) (srcK (arg m main_arg1 c)) (dstK (arg m main_arg1 c)) := by
    refine (s2_main_v72 (W4 m ρ c)).trans ?_
    rw [W4_main_v53 m ρ c, W4_main_v1 m ρ c, W4_main_v3 m ρ c]
  have r53 : V5 m ρ c main_v53 = H2 m c := (s2_main_v53 (W4 m ρ c)).trans (W4_main_v53 m ρ c)
  have r8 : V5 m ρ c main_arg8 = arg m main_arg8 c := (s2_main_arg8 (W4 m ρ c)).trans (W4_main_arg8 m ρ c)
  have r73 : V5 m ρ c main_v73 = row128K (arg m main_arg9 c) := (s2_main_v73 (W4 m ρ c)).trans (congrArg row128K (W4_main_arg9 m ρ c))
  have r10 : V5 m ρ c main_arg10 = arg m main_arg10 c := (s2_main_arg10 (W4 m ρ c)).trans (W4_main_arg10 m ρ c)
  rw [r72, r53, r8, r73, r10]
  rfl

/-- The idealized kernel's run: the result buffer ends at `OUT` of the argument arrays, the arguments as launched. -/
theorem run : θ_run defs (onTc (τ := τ) (main (F := Ideal))) ⟨m, fun _ => 0, ρ⟩ (fun r => ∀ c : Dev nD,
      r.2.mem ((c.tc : Thread nD τ).loc main_v74) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1).trans (W6_main_v74 m ρ c), (h c).2⟩) (ValueRun.run_result m ρ)

end Cert.KernelIdeal.Val

end
-- ==== Proof.RefValue.lean ====
/-
  The idealized reference's result as one function of the argument arrays, and its layers read at an index. The
  program is one stretch of host operations; its three layers are each the mean over incoming edges, two products and
  a bias, and for the first two the normalisation in its unfolded arrangement and the rectifier.
-/
import proofs.«125707_j77833397338551_2_alg».proof.Proof.Gen.ReferenceIdeal.Run
import proofs.«125707_j77833397338551_2_alg».proof.Proof.LibSageLayer

noncomputable section

namespace Cert.ReferenceIdeal.RefVal

open Cert.ReferenceIdeal Cert.ReferenceIdeal.Gen Cert.ReferenceIdeal.Value Cert.LibSageLayer
open Idealize.ShloMosaic Idealize.ShloMosaic.TcCoe Idealize.SL.Sem Idealize.ShloMosaic.ValueIdx

section Stages
variable {F : FTy → Type} [FloatOps F]

/-- Row 0 of the edge list: the source node of every edge. -/
def srcR (ei : (⟨S2x800000, .i32⟩ : BufTy).Contents (Elt F)) : (⟨S800000, .i32⟩ : BufTy).Contents (Elt F) :=
  (shapeCast _ (((extractStridedSlice S1x800000 ![0, 0] · slices_S2x800000_S1x800000_0_0) : (⟨S2x800000, .i32⟩ : BufTy).Contents (Elt F) → (⟨S1x800000, .i32⟩ : BufTy).Contents (Elt F)) ei) shapeCasts_S1x800000_S800000)

/-- Row 1 of the edge list: the destination node of every edge. -/
def dstR (ei : (⟨S2x800000, .i32⟩ : BufTy).Contents (Elt F)) : (⟨S800000, .i32⟩ : BufTy).Contents (Elt F) :=
  (shapeCast _ (((extractStridedSlice S1x800000 ![1, 0] · slices_S2x800000_S1x800000_1_0) : (⟨S2x800000, .i32⟩ : BufTy).Contents (Elt F) → (⟨S1x800000, .i32⟩ : BufTy).Contents (Elt F)) ei) shapeCasts_S1x800000_S800000)

/-- The mean of the source rows over the edges arriving at each node, 128 features. -/
def mean128R (x : (⟨S50000x128, .f32⟩ : BufTy).Contents (Elt F)) (src dst : (⟨S800000, .i32⟩ : BufTy).Contents (Elt F)) : (⟨S50000x128, .f32⟩ : BufTy).Contents (Elt F) :=
  ((Host.divf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) x ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) ((constantI S_ 32 0#32)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) ((constantI S_ 32 50000#32)))) src)))) ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) ((constant S_ .f32 0x3F800000#32)))) ((broadcastInDim S50000 ![] bcast_S_S50000 : (⟨S_, .f32⟩ : BufTy).Contents (Elt F) → (⟨S50000, .f32⟩ : BufTy).Contents (Elt F)) ((constant S_ .f32 0x3F800000#32)))))))

/-- The same at 256 features. -/
def mean256R (h : (⟨S50000x256, .f32⟩ : BufTy).Contents (Elt F)) (src dst : (⟨S800000, .i32⟩ : BufTy).Contents (Elt F)) : (⟨S50000x256, .f32⟩ : BufTy).Contents (Elt F) :=
  ((Host.divf : (⟨S50000x256, .f32⟩ : BufTy).Contents (Elt F) → (⟨S50000x256, .f32⟩ : BufTy).Contents (Elt F) → (⟨S50000x256, .f32⟩ : BufTy).Contents (Elt F)) (((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) (((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) h ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) ((constantI S_ 32 0#32)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) ((constantI S_ 32 50000#32)))) src)))) ((broadcastInDim S50000x256 ![0, 1] bcast_S50000x1_S50000x256_0_1 : (⟨S50000x1, .f32⟩ : BufTy).Contents (Elt F) → (⟨S50000x256, .f32⟩ : BufTy).Contents (Elt F)) ((broadcastInDim S50000x1 ![0] bcast_S50000_S50000x1_0 : (⟨S50000, .f32⟩ : BufTy).Contents (Elt F) → (⟨S50000x1, .f32⟩ : BufTy).Contents (Elt F)) ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) ((constant S_ .f32 0x3F800000#32)))) ((broadcastInDim S50000 ![] bcast_S_S50000 : (⟨S_, .f32⟩ : BufTy).Contents (Elt F) → (⟨S50000, .f32⟩ : BufTy).Contents (Elt F)) ((constant S_ .f32 0x3F800000#32)))))))

end Stages

/-- The host's linear part: (means · Wl + bias rows) + nodes · Wr. -/
def linR1 (A X : FVec Ideal S50000x128 .f32) (wl wr : FVec Ideal S128x256 .f32) (b : FVec Ideal S256 .f32) : FVec Ideal S50000x256 .f32 :=
  addf (addf (Host.dotGeneral dot_S50000x128_S128x256_S50000x256_1_0_0_1_n_n none A wl) (broadcastInDim S50000x256 ![0, 1] bcast_S1x256_S50000x256_0_1 (broadcastInDim S1x256 ![1] bcast_S256_S1x256_1 b))) (Host.dotGeneral dot_S50000x128_S128x256_S50000x256_1_0_0_1_n_n none X wr)

theorem linR1_eq (A X : FVec Ideal S50000x128 .f32) (wl wr : FVec Ideal S128x256 .f32) (b : FVec Ideal S256 .f32) :
    linR1 A X wl wr b = lin A X wl wr (vec b) := by
  unfold linR1
  exact host_lin dot_S50000x128_S128x256_S50000x256_1_0_0_1_n_n_wf none A X wl wr _ (vec b)
    (fun a q => row_bcast_apply _ rfl _ rfl _ _ b a q)

/-- The host's linear part: (means · Wl + bias rows) + nodes · Wr. -/
def linR2 (A X : FVec Ideal S50000x256 .f32) (wl wr : FVec Ideal S256x256 .f32) (b : FVec Ideal S256 .f32) : FVec Ideal S50000x256 .f32 :=
  addf (addf (Host.dotGeneral dot_S50000x256_S256x256_S50000x256_1_0_0_1_n_n none A wl) (broadcastInDim S50000x256 ![0, 1] bcast_S1x256_S50000x256_0_1 (broadcastInDim S1x256 ![1] bcast_S256_S1x256_1 b))) (Host.dotGeneral dot_S50000x256_S256x256_S50000x256_1_0_0_1_n_n none X wr)

theorem linR2_eq (A X : FVec Ideal S50000x256 .f32) (wl wr : FVec Ideal S256x256 .f32) (b : FVec Ideal S256 .f32) :
    linR2 A X wl wr b = lin A X wl wr (vec b) := by
  unfold linR2
  exact host_lin dot_S50000x256_S256x256_S50000x256_1_0_0_1_n_n_wf none A X wl wr _ (vec b)
    (fun a q => row_bcast_apply _ rfl _ rfl _ _ b a q)

/-- The host's linear part: (means · Wl + bias rows) + nodes · Wr. -/
def linR3 (A X : FVec Ideal S50000x256 .f32) (wl wr : FVec Ideal S256x128 .f32) (b : FVec Ideal S128 .f32) : FVec Ideal S50000x128 .f32 :=
  addf (addf (Host.dotGeneral dot_S50000x256_S256x128_S50000x128_1_0_0_1_n_n none A wl) (broadcastInDim S50000x128 ![0, 1] bcast_S1x128_S50000x128_0_1 (broadcastInDim S1x128 ![1] bcast_S128_S1x128_1 b))) (Host.dotGeneral dot_S50000x256_S256x128_S50000x128_1_0_0_1_n_n none X wr)

theorem linR3_eq (A X : FVec Ideal S50000x256 .f32) (wl wr : FVec Ideal S256x128 .f32) (b : FVec Ideal S128 .f32) :
    linR3 A X wl wr b = lin A X wl wr (vec b) := by
  unfold linR3
  exact host_lin dot_S50000x256_S256x128_S50000x128_1_0_0_1_n_n_wf none A X wl wr _ (vec b)
    (fun a q => row_bcast_apply _ rfl _ rfl _ _ b a q)

/-- The host's normalisation, unfolded, and rectifier: max (((out − m) · (v + ε)^(-1/2)) · w + s, 0), each vector as a
    row repeated down the rows. -/
def bnR (OUT : FVec Ideal S50000x256 .f32) (w s m v : FVec Ideal S256 .f32) : FVec Ideal S50000x256 .f32 :=
  maximumf (addf (mulf (mulf (subf OUT (broadcastInDim S50000x256 ![0, 1] bcast_S1x256_S50000x256_0_1 (broadcastInDim S1x256 ![1] bcast_S256_S1x256_1 m)))
      (broadcastInDim S50000x256 ![0, 1] bcast_S1x256_S50000x256_0_1 (broadcastInDim S1x256 ![1] bcast_S256_S1x256_1 (Host.rsqrt (addf v (broadcastInDim S256 ![] bcast_S_S256 (constant S_ .f32 0x3727C5AC#32)))))))
      (broadcastInDim S50000x256 ![0, 1] bcast_S1x256_S50000x256_0_1 (broadcastInDim S1x256 ![1] bcast_S256_S1x256_1 w))) (broadcastInDim S50000x256 ![0, 1] bcast_S1x256_S50000x256_0_1 (broadcastInDim S1x256 ![1] bcast_S256_S1x256_1 s)))
    (broadcastInDim S50000x256 ![] bcast_S_S50000x256 (constant S_ .f32 0x00000000#32))

theorem bnR_eq (OUT : FVec Ideal S50000x256 .f32) (w s m v : FVec Ideal S256 .f32) :
    bnR OUT w s m v = fun i => bnPlain (OUT i) (vec w (i 1)) (vec s (i 1)) (vec m (i 1)) (vec v (i 1))
      (Ideal.ofBits .f32 0x3727C5AC#32) := by
  unfold bnR
  refine host_bn OUT _ _ _ _ _ (vec w) (vec s) (vec m) (vec v) (Ideal.ofBits .f32 0x3727C5AC#32)
    (fun a q => row_bcast_apply _ rfl _ rfl _ _ m a q) (fun a q => ?_)
    (fun a q => row_bcast_apply _ rfl _ rfl _ _ w a q) (fun a q => row_bcast_apply _ rfl _ rfl _ _ s a q)
    (fun i => (scalar_bcast_apply _ _ _ i).trans rfl)
  refine (row_bcast_apply _ rfl _ rfl _ _ _ a q).trans ?_
  show Ideal.rsqrt (v (ix1 q) + broadcastInDim S256 ![] bcast_S_S256 (constant (F := Ideal) S_ .f32 0x3727C5AC#32) (ix1 q)) = _
  rw [scalar_bcast_apply]
  rfl

/-- The first layer's output. -/
def H1R (a0 : FVec Ideal S50000x128 .f32) (a1 : IVec S2x800000 32) (a2 : FVec Ideal S128x256 .f32) (a3 : FVec Ideal S256 .f32)
    (a4 : FVec Ideal S128x256 .f32) (a11 a12 a13 a14 : FVec Ideal S256 .f32) : FVec Ideal S50000x256 .f32 :=
  bnR (linR1 (mean128R (F := Ideal) a0 (srcR (F := Ideal) a1) (dstR (F := Ideal) a1)) a0 a2 a4 a3) a11 a12 a13 a14

/-- The second layer's output, from the first's. -/
def H2R (h1 : FVec Ideal S50000x256 .f32) (a1 : IVec S2x800000 32) (a5 : FVec Ideal S256x256 .f32) (a6 : FVec Ideal S256 .f32)
    (a7 : FVec Ideal S256x256 .f32) (a15 a16 a17 a18 : FVec Ideal S256 .f32) : FVec Ideal S50000x256 .f32 :=
  bnR (linR2 (mean256R (F := Ideal) h1 (srcR (F := Ideal) a1) (dstR (F := Ideal) a1)) h1 a5 a7 a6) a15 a16 a17 a18

/-- The result, from the second layer's output. -/
def OUTR (h2 : FVec Ideal S50000x256 .f32) (a1 : IVec S2x800000 32) (a8 : FVec Ideal S256x128 .f32) (a9 : FVec Ideal S128 .f32)
    (a10 : FVec Ideal S256x128 .f32) : FVec Ideal S50000x128 .f32 :=
  linR3 (mean256R (F := Ideal) h2 (srcR (F := Ideal) a1) (dstR (F := Ideal) a1)) h2 a8 a10 a9

variable (m : (ℓ : Loc nD τ sig) → Buf (Elt Ideal) ℓ)

/-- An argument array as launched, on device c. -/
abbrev arg (b : Ref sig .tc) (c : Dev nD) : Buf (Elt Ideal) ((c.tc : Thread nD τ).loc b) := m ((c.tc : Thread nD τ).loc b)

set_option maxRecDepth 100000 in
set_option maxHeartbeats 4000000 in
/-- The run's result term is the three layers composed. -/
theorem res_eq (c : Dev nD) : res_main_v110 (F := Ideal) m c
    = OUTR (H2R (H1R (arg m main_arg0 c) (arg m main_arg1 c) (arg m main_arg2 c) (arg m main_arg3 c) (arg m main_arg4 c)
          (arg m main_arg11 c) (arg m main_arg12 c) (arg m main_arg13 c) (arg m main_arg14 c))
        (arg m main_arg1 c) (arg m main_arg5 c) (arg m main_arg6 c) (arg m main_arg7 c)
          (arg m main_arg15 c) (arg m main_arg16 c) (arg m main_arg17 c) (arg m main_arg18 c))
      (arg m main_arg1 c) (arg m main_arg8 c) (arg m main_arg9 c) (arg m main_arg10 c) := by
  unfold res_main_v110
  rfl

end Cert.ReferenceIdeal.RefVal

end
-- ==== Proof.Bridge.lean ====
/-
  The two programs compute one function. Their host stretches are the same operations (the index vectors, the means
  over incoming edges), so those are one term. Each normalised layer is, on the kernel's side, the folded arrangement
  of the normalisation over the linear part with the bias and the four vectors laid out as rows, and on the
  reference's side the unfolded arrangement over the same linear part with the vectors broadcast; a row laid out from
  a vector reads the vector, and the two arrangements agree because the precondition makes the four vectors real and
  the variance non-negative, while ε is a positive real. The last layer is its linear part on both sides.
-/
import proofs.«125707_j77833397338551_2_alg».proof.Proof.KernelValue
import proofs.«125707_j77833397338551_2_alg».proof.Proof.RefValue
import Idealize.ShloMosaic.Lib.ValueLayout

set_option maxRecDepth 16384

noncomputable section

namespace Cert.Bridge

open Cert.LibSageLayer Idealize.ShloMosaic Idealize.ShloMosaic.ValueIdx
open Cert.KernelIdeal.Stages Cert.KernelIdeal.Val Cert.ReferenceIdeal.RefVal

/-- The word 0x3727C5AC is 10995116 · 2^(-40), about 10^(-5). -/
theorem eps_val : Ideal.ofBits .f32 0x3727C5AC#32 = (((10995116 : ℝ) * (2 : ℝ) ^ (-40 : ℤ) : ℝ) : EReal) := by
  simp [Ideal.ofBits, Ideal.ieee, -EReal.coe_mul]

theorem eps_real : ∃ e : ℝ, 0 < e ∧ Ideal.ofBits .f32 0x3727C5AC#32 = (e : EReal) :=
  ⟨_, by positivity, eps_val⟩

/-! ## The host stretches are one term -/

theorem src_eq (ei : IVec Cert.KernelIdeal.S2x800000 32) : srcK (F := Ideal) ei = srcR (F := Ideal) ei := rfl
theorem dst_eq (ei : IVec Cert.KernelIdeal.S2x800000 32) : dstK (F := Ideal) ei = dstR (F := Ideal) ei := rfl
theorem mean128_eq (x : FVec Ideal Cert.KernelIdeal.S50000x128 .f32) (src dst : IVec Cert.KernelIdeal.S800000 32) :
    mean128K (F := Ideal) x src dst = mean128R (F := Ideal) x src dst := rfl
theorem mean256_eq (h : FVec Ideal Cert.KernelIdeal.S50000x256 .f32) (src dst : IVec Cert.KernelIdeal.S800000 32) :
    mean256K (F := Ideal) h src dst = mean256R (F := Ideal) h src dst := rfl

/-! ## A vector laid out as a row reads the vector -/

theorem row_row256K (v : FVec Ideal Cert.KernelIdeal.S256 .f32) : row (row256K (F := Ideal) v) = vec v :=
  funext fun q => shapeCast_a_1a_apply v _ 0 q
theorem row_row128K (v : FVec Ideal Cert.KernelIdeal.S128 .f32) : row (row128K (F := Ideal) v) = vec v :=
  funext fun q => shapeCast_a_1a_apply v _ 0 q

/-! ## The layers -/

theorem layer1 (A X : FVec Ideal Cert.KernelIdeal.S50000x128 .f32) (wl wr : FVec Ideal Cert.KernelIdeal.S128x256 .f32)
    (b w s m v : FVec Ideal Cert.KernelIdeal.S256 .f32)
    (hw : ∀ i, ∃ r : ℝ, w i = (r : EReal)) (hs : ∀ i, ∃ r : ℝ, s i = (r : EReal)) (hm : ∀ i, ∃ r : ℝ, m i = (r : EReal))
    (hv : ∀ i, ∃ r : ℝ, v i = (r : EReal)) (hv0 : ∀ i, (0 : EReal) ≤ v i) :
    G0 A X wl (row256K (F := Ideal) b) wr (row256K (F := Ideal) w) (row256K (F := Ideal) s) (row256K (F := Ideal) m) (row256K (F := Ideal) v)
      = bnR (linR1 A X wl wr b) w s m v := by
  rw [bnR_eq, linR1_eq]
  unfold G0
  rw [row_row256K b, row_row256K w, row_row256K s, row_row256K m, row_row256K v]
  obtain ⟨e, he, hE⟩ := eps_real
  rw [hE]
  exact layerBN_eq_plain A X wl wr (vec b) (vec w) (vec s) (vec m) (vec v) e he (fun q => hw (ix1 q)) (fun q => hs (ix1 q))
    (fun q => hm (ix1 q)) (fun q => hv (ix1 q)) (fun q => hv0 (ix1 q))

theorem layer2 (A X : FVec Ideal Cert.KernelIdeal.S50000x256 .f32) (wl wr : FVec Ideal Cert.KernelIdeal.S256x256 .f32)
    (b w s m v : FVec Ideal Cert.KernelIdeal.S256 .f32)
    (hw : ∀ i, ∃ r : ℝ, w i = (r : EReal)) (hs : ∀ i, ∃ r : ℝ, s i = (r : EReal)) (hm : ∀ i, ∃ r : ℝ, m i = (r : EReal))
    (hv : ∀ i, ∃ r : ℝ, v i = (r : EReal)) (hv0 : ∀ i, (0 : EReal) ≤ v i) :
    G1 A X wl (row256K (F := Ideal) b) wr (row256K (F := Ideal) w) (row256K (F := Ideal) s) (row256K (F := Ideal) m) (row256K (F := Ideal) v)
      = bnR (linR2 A X wl wr b) w s m v := by
  rw [bnR_eq, linR2_eq]
  unfold G1
  rw [row_row256K b, row_row256K w, row_row256K s, row_row256K m, row_row256K v]
  obtain ⟨e, he, hE⟩ := eps_real
  rw [hE]
  exact layerBN_eq_plain A X wl wr (vec b) (vec w) (vec s) (vec m) (vec v) e he (fun q => hw (ix1 q)) (fun q => hs (ix1 q))
    (fun q => hm (ix1 q)) (fun q => hv (ix1 q)) (fun q => hv0 (ix1 q))

theorem layer3 (A X : FVec Ideal Cert.KernelIdeal.S50000x256 .f32) (wl wr : FVec Ideal Cert.KernelIdeal.S256x128 .f32)
    (b : FVec Ideal Cert.KernelIdeal.S128 .f32) :
    G2 A X wl (row128K (F := Ideal) b) wr = linR3 A X wl wr b := by
  rw [linR3_eq]
  unfold G2
  rw [row_row128K b]

/-! ## The whole -/

theorem out_eq (a0 : FVec Ideal Cert.KernelIdeal.S50000x128 .f32) (a1 : IVec Cert.KernelIdeal.S2x800000 32)
    (a2 a4 : FVec Ideal Cert.KernelIdeal.S128x256 .f32) (a3 : FVec Ideal Cert.KernelIdeal.S256 .f32)
    (a5 a7 : FVec Ideal Cert.KernelIdeal.S256x256 .f32) (a6 : FVec Ideal Cert.KernelIdeal.S256 .f32)
    (a8 a10 : FVec Ideal Cert.KernelIdeal.S256x128 .f32) (a9 : FVec Ideal Cert.KernelIdeal.S128 .f32)
    (a11 a12 a13 a14 a15 a16 a17 a18 : FVec Ideal Cert.KernelIdeal.S256 .f32)
    (F1 : (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, (0 : EReal) ≤ a14 i))
    (F2 : (∀ i, ∃ r : ℝ, a15 i = (r : EReal)) ∧ (∀ i, ∃ r : ℝ, a16 i = (r : EReal)) ∧ (∀ i, ∃ r : ℝ, a17 i = (r : EReal))
      ∧ (∀ i, ∃ r : ℝ, a18 i = (r : EReal)) ∧ (∀ i, (0 : EReal) ≤ a18 i)) :
    G2 (mean256K (F := Ideal)
          (G1 (mean256K (F := Ideal)
              (G0 (mean128K (F := Ideal) a0 (srcK (F := Ideal) a1) (dstK (F := Ideal) a1)) a0 a2 (row256K (F := Ideal) a3) a4
                (row256K (F := Ideal) a11) (row256K (F := Ideal) a12) (row256K (F := Ideal) a13) (row256K (F := Ideal) a14))
              (srcK (F := Ideal) a1) (dstK (F := Ideal) a1))
            (G0 (mean128K (F := Ideal) a0 (srcK (F := Ideal) a1) (dstK (F := Ideal) a1)) a0 a2 (row256K (F := Ideal) a3) a4
              (row256K (F := Ideal) a11) (row256K (F := Ideal) a12) (row256K (F := Ideal) a13) (row256K (F := Ideal) a14))
            a5 (row256K (F := Ideal) a6) a7
            (row256K (F := Ideal) a15) (row256K (F := Ideal) a16) (row256K (F := Ideal) a17) (row256K (F := Ideal) a18))
          (srcK (F := Ideal) a1) (dstK (F := Ideal) a1))
        (G1 (mean256K (F := Ideal)
            (G0 (mean128K (F := Ideal) a0 (srcK (F := Ideal) a1) (dstK (F := Ideal) a1)) a0 a2 (row256K (F := Ideal) a3) a4
              (row256K (F := Ideal) a11) (row256K (F := Ideal) a12) (row256K (F := Ideal) a13) (row256K (F := Ideal) a14))
            (srcK (F := Ideal) a1) (dstK (F := Ideal) a1))
          (G0 (mean128K (F := Ideal) a0 (srcK (F := Ideal) a1) (dstK (F := Ideal) a1)) a0 a2 (row256K (F := Ideal) a3) a4
            (row256K (F := Ideal) a11) (row256K (F := Ideal) a12) (row256K (F := Ideal) a13) (row256K (F := Ideal) a14))
          a5 (row256K (F := Ideal) a6) a7
          (row256K (F := Ideal) a15) (row256K (F := Ideal) a16) (row256K (F := Ideal) a17) (row256K (F := Ideal) a18))
        a8 (row128K (F := Ideal) a9) a10
      = OUTR (H2R (H1R a0 a1 a2 a3 a4 a11 a12 a13 a14) a1 a5 a6 a7 a15 a16 a17 a18) a1 a8 a9 a10 := by
  obtain ⟨f11, f12, f13, f14, n14⟩ := F1
  obtain ⟨f15, f16, f17, f18, n18⟩ := F2
  have h1 : G0 (mean128K (F := Ideal) a0 (srcK (F := Ideal) a1) (dstK (F := Ideal) a1)) a0 a2 (row256K (F := Ideal) a3) a4
        (row256K (F := Ideal) a11) (row256K (F := Ideal) a12) (row256K (F := Ideal) a13) (row256K (F := Ideal) a14)
      = H1R a0 a1 a2 a3 a4 a11 a12 a13 a14 := by
    unfold H1R
    rw [← mean128_eq, ← src_eq, ← dst_eq]
    exact layer1 _ a0 a2 a4 a3 a11 a12 a13 a14 f11 f12 f13 f14 n14
  rw [h1]
  have h2 : G1 (mean256K (F := Ideal) (H1R a0 a1 a2 a3 a4 a11 a12 a13 a14) (srcK (F := Ideal) a1) (dstK (F := Ideal) a1))
        (H1R a0 a1 a2 a3 a4 a11 a12 a13 a14) a5 (row256K (F := Ideal) a6) a7
        (row256K (F := Ideal) a15) (row256K (F := Ideal) a16) (row256K (F := Ideal) a17) (row256K (F := Ideal) a18)
      = H2R (H1R a0 a1 a2 a3 a4 a11 a12 a13 a14) a1 a5 a6 a7 a15 a16 a17 a18 := by
    unfold H2R
    rw [← mean256_eq, ← src_eq, ← dst_eq]
    exact layer2 _ _ a5 a7 a6 a15 a16 a17 a18 f15 f16 f17 f18 n18
  rw [h2]
  unfold OUTR
  rw [← mean256_eq, ← src_eq, ← dst_eq]
  exact layer3 _ _ a8 a10 a9

end Cert.Bridge

end
-- ==== Proof.PreFacts.lean ====
/-
  The precondition read back. It is one conjunction of "all entries satisfy p" tests over the argument arrays; what
  the proof uses of it: the four normalisation vectors of each of the two normalised layers (weight, shift, mean,
  variance) hold real numbers, and the two variance vectors hold non-negative ones.
-/
import proofs.«125707_j77833397338551_2_alg».proof.Pre_finite_inputs
import proofs.«125707_j77833397338551_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.PreFacts

open Idealize.ShloMosaic Idealize.ShloMosaic.ValueIdx Cert.Pre_finite_inputs Cert.Pre_finite_inputs.Facts

instance : Subsingleton S_.Idx := ⟨fun a b => funext fun d => d.elim0⟩

theorem top_bits : Ideal.ofBits .f32 0x7F800000#32 = ⊤ := by
  simp [Ideal.ofBits, Ideal.ieee]

theorem zero_bits : Ideal.ofBits .f32 0x00000000#32 = 0 := by
  simp [Ideal.ofBits, Ideal.ieee]

/-- An extended real whose absolute value is below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- "every |entry| < +∞" gives a real at every index. -/
theorem finite_of_all {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi (cmpf .olt (Host.absf a) (broadcastInDim s dims hb (constant (F := Ideal) S_ .f32 0x7F800000#32)))
      (constantI S_ 1 1#1) hr hu ix0 = 1#1) (i : s.Idx) : ∃ r : ℝ, a i = (r : EReal) := by
  have h := Host.reduce_andi_all _ _ hr hu ix0 e i
  refine real_of_abs_lt_top (a i) ?_
  rw [← top_bits]
  exact h

/-- "every entry ≥ 0" gives a non-negative entry at every index. -/
theorem nonneg_of_all {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi (cmpf .oge a (broadcastInDim s dims hb (constant (F := Ideal) S_ .f32 0x00000000#32)))
      (constantI S_ 1 1#1) hr hu ix0 = 1#1) (i : s.Idx) : (0 : EReal) ≤ a i := by
  have h := Host.reduce_andi_all _ _ hr hu ix0 e i
  have h2 : Ideal.cmp .oge (a i) (Ideal.ofBits .f32 0x00000000#32) = 1#1 := h
  rw [zero_bits] at h2
  have hd : decide ((0 : EReal) ≤ a i) = true := by
    cases hdd : decide ((0 : EReal) ≤ a i) with
    | true => rfl
    | false => simp [Ideal.cmp, hdd] at h2
  exact of_decide_eq_true hd

/-- The facts the certificate uses, out of the precondition's conjunction. -/
theorem decode (a0 : FVec Ideal S50000x128 .f32) (a1 : IVec S2x800000 32) (a2 : FVec Ideal S128x256 .f32) (a3 : FVec Ideal S256 .f32) (a4 : FVec Ideal S128x256 .f32) (a5 : FVec Ideal S256x256 .f32) (a6 : FVec Ideal S256 .f32) (a7 : FVec Ideal S256x256 .f32) (a8 : FVec Ideal S256x128 .f32) (a9 : FVec Ideal S128 .f32) (a10 : FVec Ideal S256x128 .f32) (a11 : FVec Ideal S256 .f32) (a12 : FVec Ideal S256 .f32) (a13 : FVec Ideal S256 .f32) (a14 : FVec Ideal S256 .f32) (a15 : FVec Ideal S256 .f32) (a16 : FVec Ideal S256 .f32) (a17 : FVec Ideal S256 .f32) (a18 : FVec Ideal S256 .f32)
    (h : Cert.Pre_finite_inputs.fn (F := Ideal) a0 a1 a2 a3 a4 a5 a6 a7 a8 a9 a10 a11 a12 a13 a14 a15 a16 a17 a18 = fun _ => 1#1) :
    ((∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, (0 : EReal) ≤ a14 i))
    ∧ ((∀ i, ∃ r : ℝ, a15 i = (r : EReal)) ∧ (∀ i, ∃ r : ℝ, a16 i = (r : EReal)) ∧ (∀ i, ∃ r : ℝ, a17 i = (r : EReal))
      ∧ (∀ i, ∃ r : ℝ, a18 i = (r : EReal)) ∧ (∀ i, (0 : EReal) ≤ a18 i)) := by
  have h0 := congrFun h ix0
  dsimp only [fn, fn_part1, fn_part2, fn_part3, fn_part4, fn_part5] at h0
  obtain ⟨h1, n18⟩ := IntOp.andi_eq_one.mp h0
  obtain ⟨h2, n14⟩ := IntOp.andi_eq_one.mp h1
  obtain ⟨h3, f18⟩ := IntOp.andi_eq_one.mp h2
  obtain ⟨h4, f17⟩ := IntOp.andi_eq_one.mp h3
  obtain ⟨h5, f16⟩ := IntOp.andi_eq_one.mp h4
  obtain ⟨h6, f15⟩ := IntOp.andi_eq_one.mp h5
  obtain ⟨h7, f14⟩ := IntOp.andi_eq_one.mp h6
  obtain ⟨h8, f13⟩ := IntOp.andi_eq_one.mp h7
  obtain ⟨h9, f12⟩ := IntOp.andi_eq_one.mp h8
  obtain ⟨-, f11⟩ := IntOp.andi_eq_one.mp h9
  exact ⟨⟨finite_of_all a11 _ _ _ _ f11, finite_of_all a12 _ _ _ _ f12, finite_of_all a13 _ _ _ _ f13,
      finite_of_all a14 _ _ _ _ f14, nonneg_of_all a14 _ _ _ _ n14⟩,
    ⟨finite_of_all a15 _ _ _ _ f15, finite_of_all a16 _ _ _ _ f16, finite_of_all a17 _ _ _ _ f17,
      finite_of_all a18 _ _ _ _ f18, nonneg_of_all a18 _ _ _ _ n18⟩⟩

end Cert.PreFacts

end
-- ==== Proof.lean ====
/-
  The certificate of a three-layer graph network against its jnp reference, at the extended reals.

  Both programs compute, for node features x [50000, 128] and an edge list [2, 800000], three layers
      layer(h) = mean_in(h) · Wl + b + h · Wr,
  where mean_in(h) is, per node, the sum of h's rows over the edges arriving at the node divided by max(in-degree, 1);
  the first two layers are followed by a column-wise normalisation with a variance v, a mean m, a weight w and a shift
  s, and a rectifier. The kernel computes mean_in on the host with the very operations the reference uses, and each
  layer's dense part in one accelerator region over 25 blocks of 2000 rows: two matrix products of operands rounded to
  a narrower format (the identity on the extended reals) into zero accumulators, the bias row, and the normalisation
  folded into a scale row r · w and a shift row s − (m · r) · w, with r = (v + ε)^(-1/2). The reference subtracts m,
  multiplies by r, then by w, and adds s.

  Three facts join the two sides. (1) A sum of extended reals may be regrouped and reordered freely, so
  (A·Wl + X·Wr) + b = (A·Wl + b) + X·Wr. (2) The product of extended reals is associative, so both arrangements of
  the normalisation are out · t + const with the real t = r · w, and they agree at EVERY extended real `out` once m, w, s
  are real and r is real: at out = ±∞ a real constant changes nothing, at a real `out` it is the ring identity
  (out − m) · t + s = out · t + (s − m · t). (3) r is real exactly when v + ε is a positive real, which is what the
  precondition gives: the inputs are finite and the two variance vectors are non-negative, and ε, the word
  0x3727C5AC, is the positive real 10995116 · 2^(-40).

  The three frames are the generated ones (the reference's is its generated run with the result dropped); the ideal
  pass recorded no rewrite, so the kernel's idealization has nothing to preserve beyond `True`.
-/
import proofs.«125707_j77833397338551_2_alg».proof.Defs
import proofs.«125707_j77833397338551_2_alg».proof.Proof.Gen.Kernel
import proofs.«125707_j77833397338551_2_alg».proof.Proof.Gen.Kernel.Frame
import proofs.«125707_j77833397338551_2_alg».proof.Proof.Gen.KernelIdeal
import proofs.«125707_j77833397338551_2_alg».proof.Proof.Gen.KernelIdeal.Frame
import proofs.«125707_j77833397338551_2_alg».proof.Proof.Gen.ReferenceIdeal
import proofs.«125707_j77833397338551_2_alg».proof.Proof.Gen.ReferenceIdeal.Run
import proofs.«125707_j77833397338551_2_alg».proof.Proof.Gen.Pre_finite_inputs
import proofs.«125707_j77833397338551_2_alg».proof.Proof.Bridge
import proofs.«125707_j77833397338551_2_alg».proof.Proof.PreFacts
import Idealize.ShloMosaic.Adequacy
import Idealize.ShloMosaic.Init

set_option maxRecDepth 16384

noncomputable section

namespace Cert.Proof

open Idealize.ShloMosaic Idealize.SL.Sem

/-- The kernel's result function is the reference's, under the decoded precondition. -/
theorem out_eq (m : (ℓ : Loc Cert.KernelIdeal.nD Cert.KernelIdeal.τ Cert.KernelIdeal.sig) → Buf (Elt Ideal) ℓ)
    (c : Dev Cert.KernelIdeal.nD)
    (F1 : (∀ i, ∃ r : ℝ, Cert.KernelIdeal.Val.arg m Cert.KernelIdeal.main_arg11 c i = (r : EReal))
      ∧ (∀ i, ∃ r : ℝ, Cert.KernelIdeal.Val.arg m Cert.KernelIdeal.main_arg12 c i = (r : EReal))
      ∧ (∀ i, ∃ r : ℝ, Cert.KernelIdeal.Val.arg m Cert.KernelIdeal.main_arg13 c i = (r : EReal))
      ∧ (∀ i, ∃ r : ℝ, Cert.KernelIdeal.Val.arg m Cert.KernelIdeal.main_arg14 c i = (r : EReal))
      ∧ (∀ i, (0 : EReal) ≤ Cert.KernelIdeal.Val.arg m Cert.KernelIdeal.main_arg14 c i))
    (F2 : (∀ i, ∃ r : ℝ, Cert.KernelIdeal.Val.arg m Cert.KernelIdeal.main_arg15 c i = (r : EReal))
      ∧ (∀ i, ∃ r : ℝ, Cert.KernelIdeal.Val.arg m Cert.KernelIdeal.main_arg16 c i = (r : EReal))
      ∧ (∀ i, ∃ r : ℝ, Cert.KernelIdeal.Val.arg m Cert.KernelIdeal.main_arg17 c i = (r : EReal))
      ∧ (∀ i, ∃ r : ℝ, Cert.KernelIdeal.Val.arg m Cert.KernelIdeal.main_arg18 c i = (r : EReal))
      ∧ (∀ i, (0 : EReal) ≤ Cert.KernelIdeal.Val.arg m Cert.KernelIdeal.main_arg18 c i)) :
    Cert.KernelIdeal.Val.OUT m c
      = Cert.ReferenceIdeal.RefVal.OUTR (Cert.ReferenceIdeal.RefVal.H2R (Cert.ReferenceIdeal.RefVal.H1R
            (Cert.KernelIdeal.Val.arg m Cert.KernelIdeal.main_arg0 c) (Cert.KernelIdeal.Val.arg m Cert.KernelIdeal.main_arg1 c)
            (Cert.KernelIdeal.Val.arg m Cert.KernelIdeal.main_arg2 c) (Cert.KernelIdeal.Val.arg m Cert.KernelIdeal.main_arg3 c)
            (Cert.KernelIdeal.Val.arg m Cert.KernelIdeal.main_arg4 c) (Cert.KernelIdeal.Val.arg m Cert.KernelIdeal.main_arg11 c)
            (Cert.KernelIdeal.Val.arg m Cert.KernelIdeal.main_arg12 c) (Cert.KernelIdeal.Val.arg m Cert.KernelIdeal.main_arg13 c)
            (Cert.KernelIdeal.Val.arg m Cert.KernelIdeal.main_arg14 c))
          (Cert.KernelIdeal.Val.arg m Cert.KernelIdeal.main_arg1 c) (Cert.KernelIdeal.Val.arg m Cert.KernelIdeal.main_arg5 c)
          (Cert.KernelIdeal.Val.arg m Cert.KernelIdeal.main_arg6 c) (Cert.KernelIdeal.Val.arg m Cert.KernelIdeal.main_arg7 c)
          (Cert.KernelIdeal.Val.arg m Cert.KernelIdeal.main_arg15 c) (Cert.KernelIdeal.Val.arg m Cert.KernelIdeal.main_arg16 c)
          (Cert.KernelIdeal.Val.arg m Cert.KernelIdeal.main_arg17 c) (Cert.KernelIdeal.Val.arg m Cert.KernelIdeal.main_arg18 c))
        (Cert.KernelIdeal.Val.arg m Cert.KernelIdeal.main_arg1 c) (Cert.KernelIdeal.Val.arg m Cert.KernelIdeal.main_arg8 c)
        (Cert.KernelIdeal.Val.arg m Cert.KernelIdeal.main_arg9 c) (Cert.KernelIdeal.Val.arg m Cert.KernelIdeal.main_arg10 c) := by
  unfold Cert.KernelIdeal.Val.OUT Cert.KernelIdeal.Val.H2 Cert.KernelIdeal.Val.H1
  exact Cert.Bridge.out_eq _ _ _ _ _ _ _ _ _ _ _ _ _ _ _ _ _ _ _ F1 F2

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel's at its three layers composed, the reference's at its
    three layers composed, which are one function of arguments that agree. -/
theorem algebraic : Cert.algebraic_KernelIdeal_ReferenceIdeal := by
  intro m ρ m' ρ' hpre hagree
  refine ⟨fun c => Cert.KernelIdeal.Val.OUT m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefVal.res_eq m' c]
  obtain ⟨e0, e1, e2, e3, e4, e5, e6, e7, e8, e9, e10, e11, e12, e13, e14, e15, e16, e17, e18⟩ := hagree c
  obtain ⟨F1, F2⟩ := Cert.PreFacts.decode _ _ _ _ _ _ _ _ _ _ _ _ _ _ _ _ _ _ _ (hpre c)
  dsimp only [Cert.ReferenceIdeal.RefVal.arg]
  rw [e0, e1, e2, e3, e4, e5, e6, e7, e8, e9, e10, e11, e12, e13, e14, e15, e16, e17, e18]
  exact (out_eq m c F1 F2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
